-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 83
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S1x64, .f32⟩
  | .hbm, ⟨82, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S128x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.HostSide.lean ====
/-
  The host operations of the graph-convolution program, read as functions of what they find.

  Before the first stage the host computes, for the source and for the destination index array, the number of edges at
  each node (ones added up by index), clamps it below at one and raises it to the power -1/2, and lays each result out
  as a column [100000, 1].  Between stage one and stage two of every layer it gathers the rows of the stage-one result
  by source index and adds them up by destination index, and lays the layer's bias vector out as one row.  Each stretch
  writes only its own intermediate buffers: every other buffer keeps its contents across it.
-/
import proofs.«169762_j36481452212847_1_alg».proof.Proof.Gen.KernelIdeal.Launch
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo

/-- Running two stretches one after the other is running their concatenation. -/
theorem after_append {τ : Topo} {sig : RefSig} {Val : EltTy → Type} :
    ∀ (l1 l2 : List (HloOp τ sig Val)) (V : Valuation τ sig Val), after (l1 ++ l2) V = after l2 (after l1 V)
  | [], _, _ => rfl
  | op :: l1, l2, V => by rw [List.cons_append, after_cons, after_cons, after_append l1 l2]

/-- The degree scaling of an index array: the count of edges at each node (ones added up by index, from zero), clamped
    below at one, to the power -1/2. -/
def invSqrtDeg (idx : (⟨S1600000, .i32⟩ : BufTy).Contents (Elt Ideal)) : (⟨S100000, .f32⟩ : BufTy).Contents (Elt Ideal) :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))
    (broadcastInDim S100000 ![] bcast_S_S100000 (constant (F := Ideal) S_ .f32 0xBF000000#32))

/-- Neighbour aggregation of an [100000, 128] array: row e of the gathered array is the row of h that the source index of
    edge e names (a negative index counted from the end), and the rows are added up into the row the destination index
    names, starting from zero. -/
def gatherSum128 (src dst : (⟨S1600000, .i32⟩ : BufTy).Contents (Elt Ideal))
    (h : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Neighbour aggregation of an [100000, 64] array: row e of the gathered array is the row of h that the source index of
    edge e names (a negative index counted from the end), and the rows are added up into the row the destination index
    names, starting from zero. -/
def gatherSum64 (src dst : (⟨S1600000, .i32⟩ : BufTy).Contents (Elt Ideal))
    (h : (⟨S100000x64, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## What each stretch writes, and what it leaves alone -/

/-- The buffers the operations of this stretch write. -/
abbrev hostOps0_W : List (Ref sig .tc) := [main_cst, main_v0, main_cst_0, main_v1, main_v2, main_v3, main_cst_1, main_v4, main_v5, main_v6, main_cst_2]
theorem hostOps0_writes : (hostOps0 : List (HloOp τ sig (Elt Ideal))).Forall fun op =>
    op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer this stretch does not write keeps its contents. -/
theorem hostOps0_keep (X : Valuation τ sig (Elt Ideal)) (b : Ref sig .tc) (hb : b ∉ hostOps0_W) :
    after hostOps0 X (Proc.devRef .tc b) = X (Proc.devRef .tc b) :=
  after_of_writes_sub hostOps0 X hostOps0_writes hb

/-- The buffers the operations of this stretch write. -/
abbrev hostOps0_1_W : List (Ref sig .tc) := [main_call0_v0, main_call0_v1, main_v7]
theorem hostOps0_1_writes : (hostOps0_1 : List (HloOp τ sig (Elt Ideal))).Forall fun op =>
    op.writes ⊆ (hostOps0_1_W.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer this stretch does not write keeps its contents. -/
theorem hostOps0_1_keep (X : Valuation τ sig (Elt Ideal)) (b : Ref sig .tc) (hb : b ∉ hostOps0_1_W) :
    after hostOps0_1 X (Proc.devRef .tc b) = X (Proc.devRef .tc b) :=
  after_of_writes_sub hostOps0_1 X hostOps0_1_writes hb

/-- The buffers the operations of this stretch write. -/
abbrev hostOps0_2_W : List (Ref sig .tc) := [main_cst_3, main_v8, main_v9, main_cst_4]
theorem hostOps0_2_writes : (hostOps0_2 : List (HloOp τ sig (Elt Ideal))).Forall fun op =>
    op.writes ⊆ (hostOps0_2_W.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer this stretch does not write keeps its contents. -/
theorem hostOps0_2_keep (X : Valuation τ sig (Elt Ideal)) (b : Ref sig .tc) (hb : b ∉ hostOps0_2_W) :
    after hostOps0_2 X (Proc.devRef .tc b) = X (Proc.devRef .tc b) :=
  after_of_writes_sub hostOps0_2 X hostOps0_2_writes hb

/-- The buffers the operations of this stretch write. -/
abbrev hostOps0_3_W : List (Ref sig .tc) := [main_call1_v0, main_call1_v1, main_v10]
theorem hostOps0_3_writes : (hostOps0_3 : List (HloOp τ sig (Elt Ideal))).Forall fun op =>
    op.writes ⊆ (hostOps0_3_W.map (Proc.devRef (τ := τ) .tc)).toFinset := by
  simp only [hostOps0_3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer this stretch does not write keeps its contents. -/
theorem hostOps0_3_keep (X : Valuation τ sig (Elt Ideal)) (b : Ref sig .tc) (hb : b ∉ hostOps0_3_W) :
    after hostOps0_3 X (Proc.devRef .tc b) = X (Proc.devRef .tc b) :=
  after_of_writes_sub hostOps0_3 X hostOps0_3_writes hb

/-- The buffers the operations of this stretch write. -/
abbrev hostOps0_4_W : List (Ref sig .tc) := [main_cst_5, main_v11, main_v12, main_v13, main_v14]
theorem hostOps0_4_writes : (hostOps0_4 : List (HloOp τ sig (Elt Ideal))).Forall fun op =>
    op.writes ⊆ (hostOps0_4_W.map (Proc.devRef (τ := τ) .tc)).toFinset := by
  simp only [hostOps0_4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer this stretch does not write keeps its contents. -/
theorem hostOps0_4_keep (X : Valuation τ sig (Elt Ideal)) (b : Ref sig .tc) (hb : b ∉ hostOps0_4_W) :
    after hostOps0_4 X (Proc.devRef .tc b) = X (Proc.devRef .tc b) :=
  after_of_writes_sub hostOps0_4 X hostOps0_4_writes hb

/-- The buffers the operations of this stretch write. -/
abbrev hostOps1_W : List (Ref sig .tc) := [main_c, main_v16, main_v17, main_c_6, main_v18, main_v19, main_v20, main_v21, main_v22, main_cst_7, main_v23, main_v24, main_v25, main_v26]
theorem hostOps1_writes : (hostOps1 : List (HloOp τ sig (Elt Ideal))).Forall fun op =>
    op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer this stretch does not write keeps its contents. -/
theorem hostOps1_keep (X : Valuation τ sig (Elt Ideal)) (b : Ref sig .tc) (hb : b ∉ hostOps1_W) :
    after hostOps1 X (Proc.devRef .tc b) = X (Proc.devRef .tc b) :=
  after_of_writes_sub hostOps1 X hostOps1_writes hb

/-- The buffers the operations of this stretch write. -/
abbrev hostOps3_W : List (Ref sig .tc) := [main_c_8, main_v29, main_v30, main_c_9, main_v31, main_v32, main_v33, main_v34, main_v35, main_cst_10, main_v36, main_v37, main_v38, main_v39]
theorem hostOps3_writes : (hostOps3 : List (HloOp τ sig (Elt Ideal))).Forall fun op =>
    op.writes ⊆ (hostOps3_W.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer this stretch does not write keeps its contents. -/
theorem hostOps3_keep (X : Valuation τ sig (Elt Ideal)) (b : Ref sig .tc) (hb : b ∉ hostOps3_W) :
    after hostOps3 X (Proc.devRef .tc b) = X (Proc.devRef .tc b) :=
  after_of_writes_sub hostOps3 X hostOps3_writes hb

/-- The buffers the operations of this stretch write. -/
abbrev hostOps5_W : List (Ref sig .tc) := [main_c_11, main_v42, main_v43, main_c_12, main_v44, main_v45, main_v46, main_v47, main_v48, main_cst_13, main_v49, main_v50, main_v51, main_v52]
theorem hostOps5_writes : (hostOps5 : List (HloOp τ sig (Elt Ideal))).Forall fun op =>
    op.writes ⊆ (hostOps5_W.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer this stretch does not write keeps its contents. -/
theorem hostOps5_keep (X : Valuation τ sig (Elt Ideal)) (b : Ref sig .tc) (hb : b ∉ hostOps5_W) :
    after hostOps5 X (Proc.devRef .tc b) = X (Proc.devRef .tc b) :=
  after_of_writes_sub hostOps5 X hostOps5_writes hb

end Cert.KernelIdeal.Host

end
-- ==== Proof.LibTRefCasts.lean ====
/-
  The operations of a function that the host program calls (here the clamp at zero) are printed over typed references:
  a value's contents are carried to its buffer's type and back by a cast along an equation between the two spellings of
  one type.  The casts change nothing: there and back is the identity, and each way the contents stay the same up to
  the spelling of their type.
-/
import Idealize.ShloMosaic.Lib.StableHlo

namespace Cert.Casts

open Idealize.ShloMosaic Idealize.ShloMosaic.StableHlo

variable {sig : RefSig} {Val : EltTy → Type} {T : BufTy}

/-- Contents carried to a typed reference's buffer and back are the contents. -/
theorem ofBuf_toBuf (x : TRef sig T) (w : T.Contents Val) : x.ofBuf (x.toBuf w) = w := by
  show cast _ (cast _ w) = w
  rw [cast_cast, cast_eq]

/-- Carrying contents to a typed reference's buffer changes nothing but the spelling of their type. -/
theorem toBuf_heq (x : TRef sig T) (w : T.Contents Val) : HEq (x.toBuf w) w := cast_heq _ _

/-- Carrying a buffer's contents to the value's type changes nothing but the spelling of their type. -/
theorem ofBuf_heq (x : TRef sig T) (u : x.ref.ty.Contents Val) : HEq (x.ofBuf u) u := cast_heq _ _

end Cert.Casts
-- ==== Proof.HostValues.lean ====
/-
  What the host stretches of the graph-convolution program compute, as functions of what they find.

  The opening is five stretches: the edge counts by source and by destination; the clamp of the source count below at
  one (a called function, whose operations carry their operands to its own value types and back: the identity); its
  power -1/2; the same clamp for the destination count; its power, and the two results laid out as columns.  Read one
  stretch at a time and put together, the out-degree column is the degree scaling of the source indices and the
  in-degree column that of the destination indices.  Each aggregation stretch leaves the aggregation of the stage-one
  result it found and the layer's bias vector laid out as one row.
-/
import proofs.«169762_j36481452212847_1_alg».proof.Proof.HostSide
import proofs.«169762_j36481452212847_1_alg».proof.Proof.LibTRefCasts

noncomputable section

namespace Cert.KernelIdeal.Host

open Cert.KernelIdeal Cert.KernelIdeal.Gen Idealize.ShloMosaic Idealize.ShloMosaic.TcCoe Idealize.SL.Sem
open Idealize.ShloMosaic.StableHlo

/-! ## The opening, one stretch at a time -/

theorem hostOps0_v3 (X : Valuation τ sig (Elt Ideal)) :
    after hostOps0 X (Proc.devRef .tc main_v3) = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (X (Proc.devRef .tc main_arg1)))
        (broadcastInDim S1600000 ![] bcast_S_S1600000 (constant (F := Ideal) S_ .f32 0x3F800000#32)) := by
  dsimp only [hostOps0]
  after_results
  all_goals rfl

theorem hostOps0_v6 (X : Valuation τ sig (Elt Ideal)) :
    after hostOps0 X (Proc.devRef .tc main_v6) = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (X (Proc.devRef .tc main_arg2)))
        (broadcastInDim S1600000 ![] bcast_S_S1600000 (constant (F := Ideal) S_ .f32 0x3F800000#32)) := by
  dsimp only [hostOps0]
  after_results
  all_goals rfl

theorem hostOps0_cst_2 (X : Valuation τ sig (Elt Ideal)) :
    after hostOps0 X (Proc.devRef .tc main_cst_2) = constant (F := Ideal) S_ .f32 0x3F800000#32 := by
  dsimp only [hostOps0]
  after_results
  all_goals rfl

theorem hostOps0_1_v7 (X : Valuation τ sig (Elt Ideal)) :
    after hostOps0_1 X (Proc.devRef .tc main_v7)
      = (maximumf (F := Ideal) (φ := .f32) (broadcastInDim S100000 ![] bcast_S_S100000 (id (X (Proc.devRef .tc main_cst_2) : (⟨S_, .f32⟩ : BufTy).Contents (Elt Ideal))))
          (X (Proc.devRef .tc main_v3) : (⟨S100000, .f32⟩ : BufTy).Contents (Elt Ideal)) : (⟨S100000, .f32⟩ : BufTy).Contents (Elt Ideal)) := by
  dsimp only [hostOps0_1]
  after_results
  simp only [Cert.Casts.ofBuf_toBuf]
  rfl
theorem hostOps0_2_v9 (X : Valuation τ sig (Elt Ideal)) :
    after hostOps0_2 X (Proc.devRef .tc main_v9) = Host.powf (F := Ideal) (X (Proc.devRef .tc main_v7)) (broadcastInDim S100000 ![] bcast_S_S100000 (constant (F := Ideal) S_ .f32 0xBF000000#32)) := by
  dsimp only [hostOps0_2]
  after_results
  all_goals rfl

theorem hostOps0_2_cst_4 (X : Valuation τ sig (Elt Ideal)) :
    after hostOps0_2 X (Proc.devRef .tc main_cst_4) = constant (F := Ideal) S_ .f32 0x3F800000#32 := by
  dsimp only [hostOps0_2]
  after_results
  all_goals rfl

theorem hostOps0_3_v10 (X : Valuation τ sig (Elt Ideal)) :
    after hostOps0_3 X (Proc.devRef .tc main_v10)
      = (maximumf (F := Ideal) (φ := .f32) (broadcastInDim S100000 ![] bcast_S_S100000 (id (X (Proc.devRef .tc main_cst_4) : (⟨S_, .f32⟩ : BufTy).Contents (Elt Ideal))))
          (X (Proc.devRef .tc main_v6) : (⟨S100000, .f32⟩ : BufTy).Contents (Elt Ideal)) : (⟨S100000, .f32⟩ : BufTy).Contents (Elt Ideal)) := by
  dsimp only [hostOps0_3]
  after_results
  simp only [Cert.Casts.ofBuf_toBuf]
  rfl
theorem hostOps0_4_v13 (X : Valuation τ sig (Elt Ideal)) :
    after hostOps0_4 X (Proc.devRef .tc main_v13) = shapeCast S100000x1 (X (Proc.devRef .tc main_v9)) shapeCasts_S100000_S100000x1 := by
  dsimp only [hostOps0_4]
  after_results
  all_goals rfl

theorem hostOps0_4_v14 (X : Valuation τ sig (Elt Ideal)) :
    after hostOps0_4 X (Proc.devRef .tc main_v14) = shapeCast S100000x1 (Host.powf (F := Ideal) (X (Proc.devRef .tc main_v10)) (broadcastInDim S100000 ![] bcast_S_S100000 (constant (F := Ideal) S_ .f32 0xBF000000#32))) shapeCasts_S100000_S100000x1 := by
  dsimp only [hostOps0_4]
  after_results
  all_goals rfl

/-! ## The opening, put together -/

/-- The five opening stretches, one after the other. -/
abbrev opening (X : Valuation τ sig (Elt Ideal)) : Valuation τ sig (Elt Ideal) :=
  after hostOps0_4 (after hostOps0_3 (after hostOps0_2 (after hostOps0_1 (after hostOps0 X))))

/-- A buffer none of the opening stretches writes keeps its contents across them. -/
theorem opening_keep (X : Valuation τ sig (Elt Ideal)) (b : Ref sig .tc)
    (h0 : b ∉ hostOps0_W) (h1 : b ∉ hostOps0_1_W) (h2 : b ∉ hostOps0_2_W) (h3 : b ∉ hostOps0_3_W) (h4 : b ∉ hostOps0_4_W) :
    opening X (Proc.devRef .tc b) = X (Proc.devRef .tc b) := by
  unfold opening
  rw [hostOps0_4_keep _ b h4, hostOps0_3_keep _ b h3, hostOps0_2_keep _ b h2, hostOps0_1_keep _ b h1, hostOps0_keep _ b h0]

/-- After the opening the out-degree column holds the degree scaling of the source indices, as a column. -/
theorem opening_out (X : Valuation τ sig (Elt Ideal)) :
    opening X (Proc.devRef .tc main_v13)
      = shapeCast S100000x1 (invSqrtDeg (X (Proc.devRef .tc main_arg1))) shapeCasts_S100000_S100000x1 := by
  unfold opening
  rw [hostOps0_4_v13, hostOps0_3_keep _ main_v9 (by decide), hostOps0_2_v9, hostOps0_1_v7, hostOps0_cst_2, hostOps0_v3]
  rfl

/-- After the opening the in-degree column holds the degree scaling of the destination indices, as a column. -/
theorem opening_in (X : Valuation τ sig (Elt Ideal)) :
    opening X (Proc.devRef .tc main_v14)
      = shapeCast S100000x1 (invSqrtDeg (X (Proc.devRef .tc main_arg2))) shapeCasts_S100000_S100000x1 := by
  unfold opening
  rw [hostOps0_4_v14, hostOps0_3_v10, hostOps0_2_cst_4, hostOps0_2_keep _ main_v6 (by decide),
    hostOps0_1_keep _ main_v6 (by decide), hostOps0_v6]
  rfl

/-! ## The aggregation stretches -/

/-- After this stretch the aggregate buffer holds the aggregation of the stage-one result the stretch found. -/
theorem hostOps1_agg (X : Valuation τ sig (Elt Ideal)) :
    after hostOps1 X (Proc.devRef .tc main_v25)
      = gatherSum128 (X (Proc.devRef .tc main_arg1)) (X (Proc.devRef .tc main_arg2)) (X (Proc.devRef .tc main_v15)) := by
  dsimp only [hostOps1]
  after_results_simp
  all_goals rfl
/-- After this stretch the bias buffer holds the bias vector laid out as one row. -/
theorem hostOps1_bias (X : Valuation τ sig (Elt Ideal)) :
    after hostOps1 X (Proc.devRef .tc main_v26)
      = shapeCast S1x128 (X (Proc.devRef .tc main_arg4)) shapeCasts_S128_S1x128 := by
  dsimp only [hostOps1]
  after_results_simp
  all_goals rfl

/-- After this stretch the aggregate buffer holds the aggregation of the stage-one result the stretch found. -/
theorem hostOps3_agg (X : Valuation τ sig (Elt Ideal)) :
    after hostOps3 X (Proc.devRef .tc main_v38)
      = gatherSum128 (X (Proc.devRef .tc main_arg1)) (X (Proc.devRef .tc main_arg2)) (X (Proc.devRef .tc main_v28)) := by
  dsimp only [hostOps3]
  after_results_simp
  all_goals rfl
/-- After this stretch the bias buffer holds the bias vector laid out as one row. -/
theorem hostOps3_bias (X : Valuation τ sig (Elt Ideal)) :
    after hostOps3 X (Proc.devRef .tc main_v39)
      = shapeCast S1x128 (X (Proc.devRef .tc main_arg6)) shapeCasts_S128_S1x128 := by
  dsimp only [hostOps3]
  after_results_simp
  all_goals rfl

/-- After this stretch the aggregate buffer holds the aggregation of the stage-one result the stretch found. -/
theorem hostOps5_agg (X : Valuation τ sig (Elt Ideal)) :
    after hostOps5 X (Proc.devRef .tc main_v51)
      = gatherSum64 (X (Proc.devRef .tc main_arg1)) (X (Proc.devRef .tc main_arg2)) (X (Proc.devRef .tc main_v41)) := by
  dsimp only [hostOps5]
  after_results_simp
  all_goals rfl
/-- After this stretch the bias buffer holds the bias vector laid out as one row. -/
theorem hostOps5_bias (X : Valuation τ sig (Elt Ideal)) :
    after hostOps5 X (Proc.devRef .tc main_v52)
      = shapeCast S1x64 (X (Proc.devRef .tc main_arg8)) shapeCasts_S64_S1x64 := by
  dsimp only [hostOps5]
  after_results_simp
  all_goals rfl

end Cert.KernelIdeal.Host

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«169762_j36481452212847_1_alg».proof.Proof.LibMatmulPlain
import proofs.«169762_j36481452212847_1_alg».proof.Proof.LibDotsNT
import proofs.«169762_j36481452212847_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibScaledDense.lean ====
/-
  A dense layer whose input rows are scaled before the product, read at an entry of its result, on the extended reals.

  For a feature array X : [a, k], a column of row scales S : [a, 1] and a weight matrix W : [k, n] the layer is
  (X * S) W, the scale of row r applied to every entry of that row before the product is taken:

      entry (r, q)  =  sum over c of (X(r, c) * S(r, 0)) * W(c, q).

  The tile of a grid point spells it with the column spread over the columns of the block, an elementwise product, and
  the matrix unit's product of the operands in bfloat16 (a change of format, which does nothing to an extended real)
  into a zero accumulator; the host spells it with a broadcast_in_dim of the column, an elementwise product and a
  dot_general.  Both are the function `spec` below of the three arrays, as whole arrays.  An entry of `spec` depends
  only on one row of X, one entry of S and one column of W, so it can be read off any arrays that agree there
  (`spec_congr`): that is what makes a block of rows of the layer the layer of the block of rows.
-/
import Idealize.ShloMosaic.Lib.Pipeline.Value
import Idealize.ShloMosaic.Lib.ValueIdx
import Idealize.ShloMosaic.Lib.ValueLayout
import Idealize.ShloMosaic.PureOps.Ideal.Laws
import proofs.«169762_j36481452212847_1_alg».proof.Proof.LibDenseLayer

noncomputable section

open scoped BigOperators

namespace Cert.ScaledDense

open Idealize.ShloMosaic Idealize.ShloMosaic.ValueIdx

variable {a k n : ℕ}

/-- X with row r multiplied by the scale S(r, 0). -/
def scaled (X : (⟨2, ![a, k]⟩ : Shape).Idx → EReal) (S : (⟨2, ![a, 1]⟩ : Shape).Idx → EReal) :
    (⟨2, ![a, k]⟩ : Shape).Idx → EReal :=
  fun i => X i * S (ix2 (i 0) (0 : Fin 1))

/-- The layer: the product of the row-scaled X with W. -/
def spec (X : (⟨2, ![a, k]⟩ : Shape).Idx → EReal) (S : (⟨2, ![a, 1]⟩ : Shape).Idx → EReal)
    (W : (⟨2, ![k, n]⟩ : Shape).Idx → EReal) : (⟨2, ![a, n]⟩ : Shape).Idx → EReal :=
  Cert.Dense.prod (scaled X S) W

/-- The layer at entry (r, q): the sum over c of (X(r, c) * S(r, 0)) * W(c, q). -/
theorem spec_ix2 (X : (⟨2, ![a, k]⟩ : Shape).Idx → EReal) (S : (⟨2, ![a, 1]⟩ : Shape).Idx → EReal)
    (W : (⟨2, ![k, n]⟩ : Shape).Idx → EReal) (r : Fin a) (q : Fin n) :
    spec X S W (ix2 r q) = ∑ c : Fin k, (X (ix2 r c) * S (ix2 r (0 : Fin 1))) * W (ix2 c q) := rfl

/-- An entry of the layer depends only on row r of X, on S(r, 0) and on column q of W: arrays of any heights and
    widths that agree there give the same entry. -/
theorem spec_congr {a' n' : ℕ}
    (X : (⟨2, ![a, k]⟩ : Shape).Idx → EReal) (S : (⟨2, ![a, 1]⟩ : Shape).Idx → EReal)
    (W : (⟨2, ![k, n]⟩ : Shape).Idx → EReal)
    (X' : (⟨2, ![a', k]⟩ : Shape).Idx → EReal) (S' : (⟨2, ![a', 1]⟩ : Shape).Idx → EReal)
    (W' : (⟨2, ![k, n']⟩ : Shape).Idx → EReal)
    (r : Fin a) (q : Fin n) (r' : Fin a') (q' : Fin n')
    (hX : ∀ c : Fin k, X (ix2 r c) = X' (ix2 r' c)) (hS : S (ix2 r (0 : Fin 1)) = S' (ix2 r' (0 : Fin 1)))
    (hW : ∀ c : Fin k, W (ix2 c q) = W' (ix2 c q')) :
    spec X S W (ix2 r q) = spec X' S' W' (ix2 r' q') := by
  rw [spec_ix2, spec_ix2]
  exact Finset.sum_congr rfl fun c _ => by rw [hX c, hS, hW c]

/-- The same at any two indices: the layer at `j` over one triple of arrays is the layer at `i` over another when the
    two triples agree on the row, the scale and the column those entries read. -/
theorem spec_congr_at {a' n' : ℕ}
    (X : (⟨2, ![a, k]⟩ : Shape).Idx → EReal) (S : (⟨2, ![a, 1]⟩ : Shape).Idx → EReal)
    (W : (⟨2, ![k, n]⟩ : Shape).Idx → EReal)
    (X' : (⟨2, ![a', k]⟩ : Shape).Idx → EReal) (S' : (⟨2, ![a', 1]⟩ : Shape).Idx → EReal)
    (W' : (⟨2, ![k, n']⟩ : Shape).Idx → EReal)
    (j : (⟨2, ![a, n]⟩ : Shape).Idx) (i : (⟨2, ![a', n']⟩ : Shape).Idx)
    (hX : ∀ c : Fin k, X (ix2 (j 0) c) = X' (ix2 (i 0) c))
    (hS : S (ix2 (j 0) (0 : Fin 1)) = S' (ix2 (i 0) (0 : Fin 1)))
    (hW : ∀ c : Fin k, W (ix2 c (j 1)) = W' (ix2 c (i 1))) :
    spec X S W j = spec X' S' W' i := by
  show ∑ c : Fin k, (X (ix2 (j 0) c) * S (ix2 (j 0) (0 : Fin 1))) * W (ix2 c (j 1))
    = ∑ c : Fin k, (X' (ix2 (i 0) c) * S' (ix2 (i 0) (0 : Fin 1))) * W' (ix2 c (i 1))
  exact Finset.sum_congr rfl fun c _ => by rw [hX c, hS, hW c]

/-- The tile's scaling: the column cast to itself, spread over the columns of the block and multiplied in. -/
theorem tile_scaled (x0 : FVec Ideal ⟨2, ![a, k]⟩ .f32) (x1 : FVec Ideal ⟨2, ![a, 1]⟩ .f32)
    (hc : (⟨2, ![a, 1]⟩ : Shape).ShapeCasts ⟨2, ![a, 1]⟩) (hb : (⟨2, ![a, 1]⟩ : Shape).Broadcasts ⟨2, ![a, k]⟩) :
    mulf x0 (broadcastTo ⟨2, ![a, k]⟩ (shapeCast ⟨2, ![a, 1]⟩ x1 hc) hb) = scaled x0 x1 := by
  funext j
  obtain ⟨r, c, rfl⟩ : ∃ (r : Fin a) (c : Fin k), j = ix2 r c := ⟨j 0, j 1, eq_ix2 j⟩
  rw [mulf_apply, shapeCast_self, Cert.LibKeepdims.broadcastTo_a1_ab_apply]
  rfl

/-- The host's scaling: the column laid over the array by broadcast_in_dim along both axes and multiplied in. -/
theorem host_scaled (X : FVec Ideal ⟨2, ![a, k]⟩ .f32) (S : FVec Ideal ⟨2, ![a, 1]⟩ .f32)
    (hS : (⟨2, ![a, 1]⟩ : Shape).BroadcastsInDim ⟨2, ![a, k]⟩ ![0, 1]) :
    mulf X (broadcastInDim ⟨2, ![a, k]⟩ ![0, 1] hS S) = scaled X S := by
  funext j
  obtain ⟨r, c, rfl⟩ : ∃ (r : Fin a) (c : Fin k), j = ix2 r c := ⟨j 0, j 1, eq_ix2 j⟩
  rw [mulf_apply, Cert.Dense.bcast_col_apply]
  rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The tile's spelling is the layer: the scaled block in bfloat16 times the weights (in any float format, cast to
    their own shape) into a zero accumulator. -/
theorem tile_eq_spec {φ : FTy} (x0 : FVec Ideal ⟨2, ![a, k]⟩ .f32) (x1 : FVec Ideal ⟨2, ![a, 1]⟩ .f32)
    (x2 : FVec Ideal ⟨2, ![k, n]⟩ φ)
    (hc : (⟨2, ![a, 1]⟩ : Shape).ShapeCasts ⟨2, ![a, 1]⟩) (hb : (⟨2, ![a, 1]⟩ : Shape).Broadcasts ⟨2, ![a, k]⟩)
    (hw : (⟨2, ![k, n]⟩ : Shape).ShapeCasts ⟨2, ![k, n]⟩) (ht : FTy.bf16.bits < FTy.f32.bits) :
    matmul d none (truncf .bf16 (mulf x0 (broadcastTo ⟨2, ![a, k]⟩ (shapeCast ⟨2, ![a, 1]⟩ x1 hc) hb)) ht)
        (shapeCast ⟨2, ![k, n]⟩ x2 hw) (constant (F := Ideal) ⟨2, ![a, n]⟩ .f32 0x00000000#32)
      = spec x0 x1 x2 := by
  rw [tile_scaled, shapeCast_self]
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's spelling is the layer: the dot_general of the scaled array with the weights. -/
theorem host_eq_spec (X : FVec Ideal ⟨2, ![a, k]⟩ .f32) (S : FVec Ideal ⟨2, ![a, 1]⟩ .f32)
    (W : FVec Ideal ⟨2, ![k, n]⟩ .f32) (hS : (⟨2, ![a, 1]⟩ : Shape).BroadcastsInDim ⟨2, ![a, k]⟩ ![0, 1]) :
    Host.dotGeneral (F := Ideal) d none (mulf X (broadcastInDim ⟨2, ![a, k]⟩ ![0, 1] hS S)) W = spec X S W := by
  rw [host_scaled]
  exact Cert.Dense.dotGeneral_eq_prod d hlc hrc hln hrn hlb hrb _ W

end Products

end Cert.ScaledDense

end
-- ==== Proof.Scale0.lean ====
/-
  Dense stage one of graph-convolution layer one, on the extended reals.

  The stage takes the node features X : [100000, 128], the column S : [100000, 1] of out-degree scales and the weights
  W : [128, 128] and produces (X * S) W, the scale of node r applied to row r before the product.  The grid cuts the
  100000 rows into 20 blocks of 5000 consecutive rows; the tile of block t loads rows 5000 t .. 5000 t + 4999 of X and
  of S and all of W, and stores the layer of those three pieces as rows 5000 t .. 5000 t + 4999 of the result.  An entry
  (r, q) of the layer reads only row r of X, the entry S(r, 0) and column q of W, so the layer of a block of rows is the
  block of rows of the layer; and every row lies in exactly the block r / 5000.  Hence, whatever the buffers hold when
  the stage is entered, the result array after the stage is the layer of the three arrays as whole arrays.
-/
import proofs.«169762_j36481452212847_1_alg».proof.Proof.Gen.KernelIdeal.Frame
import Idealize.ShloMosaic.Lib.Pipeline.Value
import proofs.«169762_j36481452212847_1_alg».proof.Proof.LibScaledDense

noncomputable section

namespace Cert.KernelIdeal.Scale0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-block access, as a constant function. -/
theorem zero_offset : (![0, 0] : Fin 2 → Nat) = fun _ => 0 := funext fun a => by fin_cases a <;> rfl

/-- What the tile stores is the scaled dense layer of the three blocks it loaded: the column spread over the block and
    multiplied in, both operands passed to the matrix unit in bfloat16 (no change to an extended real), the product
    taken into a zero accumulator. -/
theorem tile_eq (x0 : FVec Ideal S5000x128 .f32) (x1 : FVec Ideal S5000x1 .f32) (x2 : FVec Ideal S128x128 .f32) :
    k0_pay1 (F := Ideal) x0 x1 x2 = Cert.ScaledDense.spec x0 x1 x2 := by
  unfold k0_pay1
  dsimp only
  -- the block is loaded as it is
  rw [Cert.ScaledDense.tile_scaled]
  funext j
  obtain ⟨r, q, rfl⟩ : ∃ (r : Fin 5000) (q : Fin 128), j = ix2 r q := ⟨j 0, j 1, eq_ix2 j⟩
  exact Cert.LibMatmulPlain.matmul_zero_apply dot_S5000x128_S128x128_S5000x128_1_0_0_1_n_n rfl rfl rfl rfl rfl rfl none _ _ r q

/-- The block index maps over the grid: the feature block, the scale block and the result block of point t all start
    at row block t and column block 0, and the weights are one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Grid point t writes back block t of the layer of the arrays the stage found. -/
theorem flushed_eq (c : Dev nD) (t : Fin cfg0.N) :
    (dat0 V c).flushed 3 t = ((cfg0.win 3).blk t).view.read (Elt Ideal)
      (Cert.ScaledDense.spec (V c main_arg0) (V c main_v13) (V c main_arg3)) := by
  show (cfg0.win 3).cut (grid0.coords t) ((dat0 V c).after 3 t) = _
  rw [after0_3]
  unfold out0_3
  rw [View.canon_unit_zero zero_offset]
  simp only [View.ld_unit_zero (S := S5000x128) zero_offset, View.ld_unit_zero (S := S5000x1) zero_offset,
    View.ld_unit_zero (S := S128x128) zero_offset]
  rw [tile_eq]
  obtain ⟨e00, e01, e10, e11, e20, e21, e30, e31⟩ := idx_facts t
  funext y
  have hy0 : (y 0).val < 5000 := (y 0).isLt
  have hy1 : (y 1).val < 128 := (y 1).isLt
  refine Cert.ScaledDense.spec_congr_at (a := 5000) (k := 128) (n := 128) (a' := 100000) (n' := 128)
    (iblk0 V c 0 t) (iblk0 V c 1 t) (iblk0 V c 2 t) (V c main_arg0) (V c main_v13) (V c main_arg3)
    y (((cfg0.win 3).blk t).view.emb y) (fun k => ?_) ?_ (fun k => ?_)
  · show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega
  · show V c main_v13 (((cfg0.win 1).blk t).view.emb (ix2 (y 0) (0 : Fin 1))) = V c main_v13 (ix2 ((((cfg0.win 3).blk t).view.emb y) 0) (0 : Fin 1))
    refine congrArg (V c main_v13) (funext fun a => Fin.ext ?_)
    match a with
    | ⟨0, _⟩ => show win0_1.index t (0 : Fin 2) * 5000 + 1 * (y 0).val = win0_3.index t (0 : Fin 2) * 5000 + 1 * (y 0).val; omega
    | ⟨1, _⟩ => show win0_1.index t (1 : Fin 2) * 1 + 1 * 0 = 0; omega
  · show V c main_arg3 (((cfg0.win 2).blk t).view.emb (ix2 k (y 1))) = V c main_arg3 (ix2 k ((((cfg0.win 3).blk t).view.emb y) 1))
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * (y 1).val = win0_3.index t (1 : Fin 2) * 128 + 1 * (y 1).val; omega

/-- An index of the result array lies in point t's block iff each coordinate lies in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- Every entry of the result lies in the block of some grid point: row r in block r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by show (i 0).val / 5000 < 20; omega
  obtain ⟨-, -, -, -, -, -, e30, e31⟩ := idx_facts ⟨(i 0).val / 5000, hN⟩
  refine ⟨⟨(i 0).val / 5000, hN⟩, flush0_3 _, ?_⟩
  rw [mem_blk]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    omega

/-- After the stage the result array is the scaled dense layer of the three arrays the stage found, as whole arrays. -/
theorem array_eq (c : Dev nD) :
    (dat0 V c).arrAt 3 cfg0.N = Cert.ScaledDense.spec (V c main_arg0) (V c main_v13) (V c main_arg3) :=
  (dat0 V c).arrAt_eq_of_cover 3 _ (fun t _ => flushed_eq V c t) cover

end Cert.KernelIdeal.Scale0

end
-- ==== Proof.LibRowAffine.lean ====
/-
  An array scaled row by row and shifted by a bias row, optionally rectified, read at an entry, on the extended reals.

  For an array P : [a, n], a column of row scales S : [a, 1] and a bias row B : [1, n] the affine form is

      spec P S B (r, q)    =  P(r, q) * S(r, 0) + B(0, q),
      rect z P S B (r, q)  =  max (spec P S B (r, q)) z        (the rectifier when z is zero).

  The tile of a grid point spells it with the column and the row spread over the block (a cast of each to its own
  shape, then a vector broadcast), an elementwise product and sum, and for the rectified form a maximum with a splat
  scalar; the host spells it with broadcast_in_dim along both axes and, for the rectifier, a maximum with a rank-0
  constant laid over the array.  Both are the functions below of the three arrays, as whole arrays.  An entry depends
  only on the same entry of P, one entry of S and one entry of B, so it can be read off any arrays that agree there
  (`spec_congr_at`, `rect_congr_at`): that is what makes a block of rows of the form the form of the block of rows.
-/
import Idealize.ShloMosaic.Lib.Pipeline.Value
import Idealize.ShloMosaic.Lib.ValueIdx
import Idealize.ShloMosaic.Lib.ValueLayout
import Idealize.ShloMosaic.PureOps.Ideal.Laws
import proofs.«169762_j36481452212847_1_alg».proof.Proof.LibDenseLayer

noncomputable section

namespace Cert.RowAffine

open Idealize.ShloMosaic Idealize.ShloMosaic.ValueIdx

variable {a n : ℕ}

/-- P with row r multiplied by S(r, 0) and B(0, q) added in column q. -/
def spec (P : (⟨2, ![a, n]⟩ : Shape).Idx → EReal) (S : (⟨2, ![a, 1]⟩ : Shape).Idx → EReal)
    (B : (⟨2, ![1, n]⟩ : Shape).Idx → EReal) : (⟨2, ![a, n]⟩ : Shape).Idx → EReal :=
  fun i => P i * S (ix2 (i 0) (0 : Fin 1)) + B (ix2 (0 : Fin 1) (i 1))

/-- The same, bounded below by z entry by entry. -/
def rect (z : EReal) (P : (⟨2, ![a, n]⟩ : Shape).Idx → EReal) (S : (⟨2, ![a, 1]⟩ : Shape).Idx → EReal)
    (B : (⟨2, ![1, n]⟩ : Shape).Idx → EReal) : (⟨2, ![a, n]⟩ : Shape).Idx → EReal :=
  fun i => max (spec P S B i) z

/-- An entry of the affine form depends only on that entry of P, on S in its row and on B in its column: arrays of any
    heights and widths that agree there give the same entry. -/
theorem spec_congr_at {a' n' : ℕ}
    (P : (⟨2, ![a, n]⟩ : Shape).Idx → EReal) (S : (⟨2, ![a, 1]⟩ : Shape).Idx → EReal)
    (B : (⟨2, ![1, n]⟩ : Shape).Idx → EReal)
    (P' : (⟨2, ![a', n']⟩ : Shape).Idx → EReal) (S' : (⟨2, ![a', 1]⟩ : Shape).Idx → EReal)
    (B' : (⟨2, ![1, n']⟩ : Shape).Idx → EReal)
    (j : (⟨2, ![a, n]⟩ : Shape).Idx) (i : (⟨2, ![a', n']⟩ : Shape).Idx)
    (hP : P j = P' i) (hS : S (ix2 (j 0) (0 : Fin 1)) = S' (ix2 (i 0) (0 : Fin 1)))
    (hB : B (ix2 (0 : Fin 1) (j 1)) = B' (ix2 (0 : Fin 1) (i 1))) :
    spec P S B j = spec P' S' B' i := by
  show P j * S (ix2 (j 0) (0 : Fin 1)) + B (ix2 (0 : Fin 1) (j 1))
    = P' i * S' (ix2 (i 0) (0 : Fin 1)) + B' (ix2 (0 : Fin 1) (i 1))
  rw [hP, hS, hB]

/-- The same for the rectified form. -/
theorem rect_congr_at {a' n' : ℕ} (z : EReal)
    (P : (⟨2, ![a, n]⟩ : Shape).Idx → EReal) (S : (⟨2, ![a, 1]⟩ : Shape).Idx → EReal)
    (B : (⟨2, ![1, n]⟩ : Shape).Idx → EReal)
    (P' : (⟨2, ![a', n']⟩ : Shape).Idx → EReal) (S' : (⟨2, ![a', 1]⟩ : Shape).Idx → EReal)
    (B' : (⟨2, ![1, n']⟩ : Shape).Idx → EReal)
    (j : (⟨2, ![a, n]⟩ : Shape).Idx) (i : (⟨2, ![a', n']⟩ : Shape).Idx)
    (hP : P j = P' i) (hS : S (ix2 (j 0) (0 : Fin 1)) = S' (ix2 (i 0) (0 : Fin 1)))
    (hB : B (ix2 (0 : Fin 1) (j 1)) = B' (ix2 (0 : Fin 1) (i 1))) :
    rect z P S B j = rect z P' S' B' i := by
  show max (spec P S B j) z = max (spec P' S' B' i) z
  rw [spec_congr_at P S B P' S' B' j i hP hS hB]

/-- The tile's spelling of the affine form: the block cast to its own shape, the column and the row spread over it. -/
theorem tile_eq_spec (x0 : FVec Ideal ⟨2, ![a, n]⟩ .f32) (x1 : FVec Ideal ⟨2, ![a, 1]⟩ .f32)
    (x2 : FVec Ideal ⟨2, ![1, n]⟩ .f32)
    (hc0 : (⟨2, ![a, n]⟩ : Shape).ShapeCasts ⟨2, ![a, n]⟩)
    (hc1 : (⟨2, ![a, 1]⟩ : Shape).ShapeCasts ⟨2, ![a, 1]⟩) (hb1 : (⟨2, ![a, 1]⟩ : Shape).Broadcasts ⟨2, ![a, n]⟩)
    (hc2 : (⟨2, ![1, n]⟩ : Shape).ShapeCasts ⟨2, ![1, n]⟩) (hb2 : (⟨2, ![1, n]⟩ : Shape).Broadcasts ⟨2, ![a, n]⟩) :
    addf (mulf (shapeCast ⟨2, ![a, n]⟩ x0 hc0) (broadcastTo ⟨2, ![a, n]⟩ (shapeCast ⟨2, ![a, 1]⟩ x1 hc1) hb1))
        (broadcastTo ⟨2, ![a, n]⟩ (shapeCast ⟨2, ![1, n]⟩ x2 hc2) hb2)
      = spec x0 x1 x2 := by
  rw [shapeCast_self]
  funext j
  obtain ⟨r, q, rfl⟩ : ∃ (r : Fin a) (q : Fin n), j = ix2 r q := ⟨j 0, j 1, eq_ix2 j⟩
  exact Cert.Dense.tile_affine x0 x1 x2 hc1 hb1 hc2 hb2 r q

/-- The host's spelling of the affine form: the column and the row laid over the array by broadcast_in_dim. -/
theorem host_eq_spec (P : FVec Ideal ⟨2, ![a, n]⟩ .f32) (S : FVec Ideal ⟨2, ![a, 1]⟩ .f32)
    (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    addf (mulf P (broadcastInDim ⟨2, ![a, n]⟩ ![0, 1] hS S)) (broadcastInDim ⟨2, ![a, n]⟩ ![0, 1] hB B)
      = spec P S B := by
  funext j
  obtain ⟨r, q, rfl⟩ : ∃ (r : Fin a) (q : Fin n), j = ix2 r q := ⟨j 0, j 1, eq_ix2 j⟩
  exact Cert.Dense.host_affine P S B hS hB r q

/-- The tile's rectifier: a maximum with a scalar word splat over the block. -/
theorem tile_rect (w : BitVec 32) (Y : FVec Ideal ⟨2, ![a, n]⟩ .f32) :
    maximumf Y (broadcast ⟨2, ![a, n]⟩ (Scalar.ofBits (F := Ideal) .f32 w))
      = fun i => max (Y i) (Ideal.ofBits .f32 w) := rfl

/-- The host's rectifier: a maximum with a rank-0 constant laid over the array. -/
theorem host_rect (w : BitVec 32) (Y : FVec Ideal ⟨2, ![a, n]⟩ .f32)
    (hz : (⟨0, ![]⟩ : Shape).BroadcastsInDim ⟨2, ![a, n]⟩ ![]) :
    maximumf Y (broadcastInDim ⟨2, ![a, n]⟩ ![] hz (constant (F := Ideal) ⟨0, ![]⟩ .f32 w))
      = fun i => max (Y i) (Ideal.ofBits .f32 w) := by
  funext i
  exact congrArg (max (Y i))
    (broadcastInDim_apply (s := ⟨0, ![]⟩) (t := ⟨2, ![a, n]⟩) ![] hz (constant (F := Ideal) ⟨0, ![]⟩ .f32 w) i
      (fun d => d.elim0) (fun d => d.elim0))

end Cert.RowAffine

end
-- ==== Proof.Affine1.lean ====
/-
  Dense stage two of graph-convolution layer one, on the extended reals.

  The stage takes the aggregated features P : [100000, 128], the column S : [100000, 1] of in-degree scales and the bias
  row B : [1, 128] and produces P(r, q) * S(r, 0) + B(0, q), bounded below by zero (the rectifier).  The grid cuts the 100000 rows into 20 blocks of
  5000 consecutive rows; the tile of block t loads rows 5000 t .. 5000 t + 4999 of P and of S and the whole bias row, and
  stores the form of those three pieces as rows 5000 t .. 5000 t + 4999 of the result.  An entry (r, q) of the form reads
  only P(r, q), S(r, 0) and B(0, q), so the form of a block of rows is the block of rows of the form; and every row lies
  in exactly the block r / 5000.  Hence, whatever the buffers hold when the stage is entered, the result array after the
  stage is the form of the three arrays as whole arrays.
-/
import proofs.«169762_j36481452212847_1_alg».proof.Proof.Gen.KernelIdeal.Frame
import Idealize.ShloMosaic.Lib.Pipeline.Value
import proofs.«169762_j36481452212847_1_alg».proof.Proof.LibRowAffine

noncomputable section

namespace Cert.KernelIdeal.Affine1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-block access, as a constant function. -/
theorem zero_offset : (![0, 0] : Fin 2 → Nat) = fun _ => 0 := funext fun a => by fin_cases a <;> rfl

/-- What the tile stores is the affine form of the three blocks it loaded: the column and the bias row spread over the
    block, an elementwise product and sum, then a maximum with the zero word splat over the block. -/
theorem tile_eq (x0 : FVec Ideal S5000x128 .f32) (x1 : FVec Ideal S5000x1 .f32) (x2 : FVec Ideal S1x128 .f32) :
    k1_pay1 (F := Ideal) x0 x1 x2 = Cert.RowAffine.rect (Ideal.ofBits .f32 0x00000000#32) x0 x1 x2 := by
  unfold k1_pay1
  dsimp only
  rw [Cert.RowAffine.tile_rect, Cert.RowAffine.tile_eq_spec]
  rfl

/-- The block index maps over the grid: the feature block, the scale block and the result block of point t all start
    at row block t and column block 0, and the bias row is one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Grid point t writes back block t of the form of the arrays the stage found. -/
theorem flushed_eq (c : Dev nD) (t : Fin cfg1.N) :
    (dat1 V c).flushed 3 t = ((cfg1.win 3).blk t).view.read (Elt Ideal)
      (Cert.RowAffine.rect (Ideal.ofBits .f32 0x00000000#32) (V c main_v25) (V c main_v14) (V c main_v26)) := by
  show (cfg1.win 3).cut (grid1.coords t) ((dat1 V c).after 3 t) = _
  rw [after1_3]
  unfold out1_3
  rw [View.canon_unit_zero zero_offset]
  simp only [View.ld_unit_zero (S := S5000x128) zero_offset, View.ld_unit_zero (S := S5000x1) zero_offset,
    View.ld_unit_zero (S := S1x128) zero_offset]
  rw [tile_eq]
  obtain ⟨e00, e01, e10, e11, e20, e21, e30, e31⟩ := idx_facts t
  funext y
  have hy0 : (y 0).val < 5000 := (y 0).isLt
  have hy1 : (y 1).val < 128 := (y 1).isLt
  refine Cert.RowAffine.rect_congr_at (a := 5000) (n := 128) (a' := 100000) (n' := 128) (Ideal.ofBits .f32 0x00000000#32)
    (iblk1 V c 0 t) (iblk1 V c 1 t) (iblk1 V c 2 t) (V c main_v25) (V c main_v14) (V c main_v26)
    y (((cfg1.win 3).blk t).view.emb y) ?_ ?_ ?_
  · show V c main_v25 (((cfg1.win 0).blk t).view.emb y) = V c main_v25 (((cfg1.win 3).blk t).view.emb y)
    refine congrArg (V c main_v25) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * (y 1).val = win1_3.index t (1 : Fin 2) * 128 + 1 * (y 1).val; omega
  · show V c main_v14 (((cfg1.win 1).blk t).view.emb (ix2 (y 0) (0 : Fin 1))) = V c main_v14 (ix2 ((((cfg1.win 3).blk t).view.emb y) 0) (0 : Fin 1))
    refine congrArg (V c main_v14) (funext fun a => Fin.ext ?_)
    match a with
    | ⟨0, _⟩ => show win1_1.index t (0 : Fin 2) * 5000 + 1 * (y 0).val = win1_3.index t (0 : Fin 2) * 5000 + 1 * (y 0).val; omega
    | ⟨1, _⟩ => show win1_1.index t (1 : Fin 2) * 1 + 1 * 0 = 0; omega
  · show V c main_v26 (((cfg1.win 2).blk t).view.emb (ix2 (0 : Fin 1) (y 1))) = V c main_v26 (ix2 (0 : Fin 1) ((((cfg1.win 3).blk t).view.emb y) 1))
    refine congrArg (V c main_v26) (funext fun a => Fin.ext ?_)
    match a with
    | ⟨0, _⟩ => show win1_2.index t (0 : Fin 2) * 1 + 1 * 0 = 0; omega
    | ⟨1, _⟩ => show win1_2.index t (1 : Fin 2) * 128 + 1 * (y 1).val = win1_3.index t (1 : Fin 2) * 128 + 1 * (y 1).val; omega

/-- An index of the result array lies in point t's block iff each coordinate lies in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v27).slice (win1_3.rect t)).set ↔ _
  rw [View.set_slice_whole, Rect.mem_set_unit]
  exact Iff.rfl

/-- Every entry of the result lies in the block of some grid point: row r in block r / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < cfg1.N := by show (i 0).val / 5000 < 20; omega
  obtain ⟨-, -, -, -, -, -, e30, e31⟩ := idx_facts ⟨(i 0).val / 5000, hN⟩
  refine ⟨⟨(i 0).val / 5000, hN⟩, flush1_3 _, ?_⟩
  rw [mem_blk]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, hN⟩ (1 : Fin 2) * 128 ≤ (i 1).val
      ∧ (i 1).val < win1_3.index ⟨(i 0).val / 5000, hN⟩ (1 : Fin 2) * 128 + 128
    omega

/-- After the stage the result array is the form of the three arrays the stage found, as whole arrays. -/
theorem array_eq (c : Dev nD) :
    (dat1 V c).arrAt 3 cfg1.N = Cert.RowAffine.rect (Ideal.ofBits .f32 0x00000000#32) (V c main_v25) (V c main_v14) (V c main_v26) :=
  (dat1 V c).arrAt_eq_of_cover 3 _ (fun t _ => flushed_eq V c t) cover

end Cert.KernelIdeal.Affine1

end
-- ==== Proof.Scale2.lean ====
/-
  Dense stage one of graph-convolution layer two, on the extended reals.

  The stage takes the node features X : [100000, 128], the column S : [100000, 1] of out-degree scales and the weights
  W : [128, 128] and produces (X * S) W, the scale of node r applied to row r before the product.  The grid cuts the
  100000 rows into 20 blocks of 5000 consecutive rows; the tile of block t loads rows 5000 t .. 5000 t + 4999 of X and
  of S and all of W, and stores the layer of those three pieces as rows 5000 t .. 5000 t + 4999 of the result.  An entry
  (r, q) of the layer reads only row r of X, the entry S(r, 0) and column q of W, so the layer of a block of rows is the
  block of rows of the layer; and every row lies in exactly the block r / 5000.  Hence, whatever the buffers hold when
  the stage is entered, the result array after the stage is the layer of the three arrays as whole arrays.
-/
import proofs.«169762_j36481452212847_1_alg».proof.Proof.Gen.KernelIdeal.Frame
import Idealize.ShloMosaic.Lib.Pipeline.Value
import proofs.«169762_j36481452212847_1_alg».proof.Proof.LibScaledDense

noncomputable section

namespace Cert.KernelIdeal.Scale2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-block access, as a constant function. -/
theorem zero_offset : (![0, 0] : Fin 2 → Nat) = fun _ => 0 := funext fun a => by fin_cases a <;> rfl

/-- What the tile stores is the scaled dense layer of the three blocks it loaded: the column spread over the block and
    multiplied in, both operands passed to the matrix unit in bfloat16 (no change to an extended real), the product
    taken into a zero accumulator. -/
theorem tile_eq (x0 : FVec Ideal S5000x128 .f32) (x1 : FVec Ideal S5000x1 .f32) (x2 : FVec Ideal S128x128 .f32) :
    k2_pay1 (F := Ideal) x0 x1 x2 = Cert.ScaledDense.spec x0 x1 x2 := by
  unfold k2_pay1
  dsimp only
  rw [shapeCast_self x0]
  rw [Cert.ScaledDense.tile_scaled]
  funext j
  obtain ⟨r, q, rfl⟩ : ∃ (r : Fin 5000) (q : Fin 128), j = ix2 r q := ⟨j 0, j 1, eq_ix2 j⟩
  exact Cert.LibMatmulPlain.matmul_zero_apply dot_S5000x128_S128x128_S5000x128_1_0_0_1_n_n rfl rfl rfl rfl rfl rfl none _ _ r q

/-- The block index maps over the grid: the feature block, the scale block and the result block of point t all start
    at row block t and column block 0, and the weights are one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Grid point t writes back block t of the layer of the arrays the stage found. -/
theorem flushed_eq (c : Dev nD) (t : Fin cfg2.N) :
    (dat2 V c).flushed 3 t = ((cfg2.win 3).blk t).view.read (Elt Ideal)
      (Cert.ScaledDense.spec (V c main_v27) (V c main_v13) (V c main_arg5)) := by
  show (cfg2.win 3).cut (grid2.coords t) ((dat2 V c).after 3 t) = _
  rw [after2_3]
  unfold out2_3
  rw [View.canon_unit_zero zero_offset]
  simp only [View.ld_unit_zero (S := S5000x128) zero_offset, View.ld_unit_zero (S := S5000x1) zero_offset,
    View.ld_unit_zero (S := S128x128) zero_offset]
  rw [tile_eq]
  obtain ⟨e00, e01, e10, e11, e20, e21, e30, e31⟩ := idx_facts t
  funext y
  have hy0 : (y 0).val < 5000 := (y 0).isLt
  have hy1 : (y 1).val < 128 := (y 1).isLt
  refine Cert.ScaledDense.spec_congr_at (a := 5000) (k := 128) (n := 128) (a' := 100000) (n' := 128)
    (iblk2 V c 0 t) (iblk2 V c 1 t) (iblk2 V c 2 t) (V c main_v27) (V c main_v13) (V c main_arg5)
    y (((cfg2.win 3).blk t).view.emb y) (fun k => ?_) ?_ (fun k => ?_)
  · show V c main_v27 (((cfg2.win 0).blk t).view.emb (ix2 (y 0) k)) = V c main_v27 (ix2 ((((cfg2.win 3).blk t).view.emb y) 0) k)
    refine congrArg (V c main_v27) (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * k.val = k.val; omega
  · show V c main_v13 (((cfg2.win 1).blk t).view.emb (ix2 (y 0) (0 : Fin 1))) = V c main_v13 (ix2 ((((cfg2.win 3).blk t).view.emb y) 0) (0 : Fin 1))
    refine congrArg (V c main_v13) (funext fun a => Fin.ext ?_)
    match a with
    | ⟨0, _⟩ => show win2_1.index t (0 : Fin 2) * 5000 + 1 * (y 0).val = win2_3.index t (0 : Fin 2) * 5000 + 1 * (y 0).val; omega
    | ⟨1, _⟩ => show win2_1.index t (1 : Fin 2) * 1 + 1 * 0 = 0; omega
  · show V c main_arg5 (((cfg2.win 2).blk t).view.emb (ix2 k (y 1))) = V c main_arg5 (ix2 k ((((cfg2.win 3).blk t).view.emb y) 1))
    refine congrArg (V c main_arg5) (funext fun a => Fin.ext ?_)
    match a with
    | ⟨0, _⟩ => show win2_2.index t (0 : Fin 2) * 128 + 1 * k.val = k.val; omega
    | ⟨1, _⟩ => show win2_2.index t (1 : Fin 2) * 128 + 1 * (y 1).val = win2_3.index t (1 : Fin 2) * 128 + 1 * (y 1).val; omega

/-- An index of the result array lies in point t's block iff each coordinate lies in the block's range on its axis. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v28).slice (win2_3.rect t)).set ↔ _
  rw [View.set_slice_whole, Rect.mem_set_unit]
  exact Iff.rfl

/-- Every entry of the result lies in the block of some grid point: row r in block r / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 5000 < cfg2.N := by show (i 0).val / 5000 < 20; omega
  obtain ⟨-, -, -, -, -, -, e30, e31⟩ := idx_facts ⟨(i 0).val / 5000, hN⟩
  refine ⟨⟨(i 0).val / 5000, hN⟩, flush2_3 _, ?_⟩
  rw [mem_blk]
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hN⟩ (1 : Fin 2) * 128 ≤ (i 1).val
      ∧ (i 1).val < win2_3.index ⟨(i 0).val / 5000, hN⟩ (1 : Fin 2) * 128 + 128
    omega

/-- After the stage the result array is the scaled dense layer of the three arrays the stage found, as whole arrays. -/
theorem array_eq (c : Dev nD) :
    (dat2 V c).arrAt 3 cfg2.N = Cert.ScaledDense.spec (V c main_v27) (V c main_v13) (V c main_arg5) :=
  (dat2 V c).arrAt_eq_of_cover 3 _ (fun t _ => flushed_eq V c t) cover

end Cert.KernelIdeal.Scale2

end
-- ==== Proof.Affine3.lean ====
/-
  Dense stage two of graph-convolution layer two, on the extended reals.

  The stage takes the aggregated features P : [100000, 128], the column S : [100000, 1] of in-degree scales and the bias
  row B : [1, 128] and produces P(r, q) * S(r, 0) + B(0, q), bounded below by zero (the rectifier).  The grid cuts the 100000 rows into 20 blocks of
  5000 consecutive rows; the tile of block t loads rows 5000 t .. 5000 t + 4999 of P and of S and the whole bias row, and
  stores the form of those three pieces as rows 5000 t .. 5000 t + 4999 of the result.  An entry (r, q) of the form reads
  only P(r, q), S(r, 0) and B(0, q), so the form of a block of rows is the block of rows of the form; and every row lies
  in exactly the block r / 5000.  Hence, whatever the buffers hold when the stage is entered, the result array after the
  stage is the form of the three arrays as whole arrays.
-/
import proofs.«169762_j36481452212847_1_alg».proof.Proof.Gen.KernelIdeal.Frame
import Idealize.ShloMosaic.Lib.Pipeline.Value
import proofs.«169762_j36481452212847_1_alg».proof.Proof.LibRowAffine

noncomputable section

namespace Cert.KernelIdeal.Affine3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-block access, as a constant function. -/
theorem zero_offset : (![0, 0] : Fin 2 → Nat) = fun _ => 0 := funext fun a => by fin_cases a <;> rfl

/-- What the tile stores is the affine form of the three blocks it loaded: the column and the bias row spread over the
    block, an elementwise product and sum, then a maximum with the zero word splat over the block. -/
theorem tile_eq (x0 : FVec Ideal S5000x128 .f32) (x1 : FVec Ideal S5000x1 .f32) (x2 : FVec Ideal S1x128 .f32) :
    k3_pay1 (F := Ideal) x0 x1 x2 = Cert.RowAffine.rect (Ideal.ofBits .f32 0x00000000#32) x0 x1 x2 := by
  unfold k3_pay1
  dsimp only
  rw [Cert.RowAffine.tile_rect, Cert.RowAffine.tile_eq_spec]
  rfl

/-- The block index maps over the grid: the feature block, the scale block and the result block of point t all start
    at row block t and column block 0, and the bias row is one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Grid point t writes back block t of the form of the arrays the stage found. -/
theorem flushed_eq (c : Dev nD) (t : Fin cfg3.N) :
    (dat3 V c).flushed 3 t = ((cfg3.win 3).blk t).view.read (Elt Ideal)
      (Cert.RowAffine.rect (Ideal.ofBits .f32 0x00000000#32) (V c main_v38) (V c main_v14) (V c main_v39)) := by
  show (cfg3.win 3).cut (grid3.coords t) ((dat3 V c).after 3 t) = _
  rw [after3_3]
  unfold out3_3
  rw [View.canon_unit_zero zero_offset]
  simp only [View.ld_unit_zero (S := S5000x128) zero_offset, View.ld_unit_zero (S := S5000x1) zero_offset,
    View.ld_unit_zero (S := S1x128) zero_offset]
  rw [tile_eq]
  obtain ⟨e00, e01, e10, e11, e20, e21, e30, e31⟩ := idx_facts t
  funext y
  have hy0 : (y 0).val < 5000 := (y 0).isLt
  have hy1 : (y 1).val < 128 := (y 1).isLt
  refine Cert.RowAffine.rect_congr_at (a := 5000) (n := 128) (a' := 100000) (n' := 128) (Ideal.ofBits .f32 0x00000000#32)
    (iblk3 V c 0 t) (iblk3 V c 1 t) (iblk3 V c 2 t) (V c main_v38) (V c main_v14) (V c main_v39)
    y (((cfg3.win 3).blk t).view.emb y) ?_ ?_ ?_
  · show V c main_v38 (((cfg3.win 0).blk t).view.emb y) = V c main_v38 (((cfg3.win 3).blk t).view.emb y)
    refine congrArg (V c main_v38) (funext fun a => Fin.ext ?_)
    match a with
    | ⟨0, _⟩ => show win3_0.index t (0 : Fin 2) * 5000 + 1 * (y 0).val = win3_3.index t (0 : Fin 2) * 5000 + 1 * (y 0).val; omega
    | ⟨1, _⟩ => show win3_0.index t (1 : Fin 2) * 128 + 1 * (y 1).val = win3_3.index t (1 : Fin 2) * 128 + 1 * (y 1).val; omega
  · show V c main_v14 (((cfg3.win 1).blk t).view.emb (ix2 (y 0) (0 : Fin 1))) = V c main_v14 (ix2 ((((cfg3.win 3).blk t).view.emb y) 0) (0 : Fin 1))
    refine congrArg (V c main_v14) (funext fun a => Fin.ext ?_)
    match a with
    | ⟨0, _⟩ => show win3_1.index t (0 : Fin 2) * 5000 + 1 * (y 0).val = win3_3.index t (0 : Fin 2) * 5000 + 1 * (y 0).val; omega
    | ⟨1, _⟩ => show win3_1.index t (1 : Fin 2) * 1 + 1 * 0 = 0; omega
  · show V c main_v39 (((cfg3.win 2).blk t).view.emb (ix2 (0 : Fin 1) (y 1))) = V c main_v39 (ix2 (0 : Fin 1) ((((cfg3.win 3).blk t).view.emb y) 1))
    refine congrArg (V c main_v39) (funext fun a => Fin.ext ?_)
    match a with
    | ⟨0, _⟩ => show win3_2.index t (0 : Fin 2) * 1 + 1 * 0 = 0; omega
    | ⟨1, _⟩ => show win3_2.index t (1 : Fin 2) * 128 + 1 * (y 1).val = win3_3.index t (1 : Fin 2) * 128 + 1 * (y 1).val; omega

/-- An index of the result array lies in point t's block iff each coordinate lies in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v40).slice (win3_3.rect t)).set ↔ _
  rw [View.set_slice_whole, Rect.mem_set_unit]
  exact Iff.rfl

/-- Every entry of the result lies in the block of some grid point: row r in block r / 5000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 5000 < cfg3.N := by show (i 0).val / 5000 < 20; omega
  obtain ⟨-, -, -, -, -, -, e30, e31⟩ := idx_facts ⟨(i 0).val / 5000, hN⟩
  refine ⟨⟨(i 0).val / 5000, hN⟩, flush3_3 _, ?_⟩
  rw [mem_blk]
  intro a
  match a with
  | ⟨0, _⟩ =>
    show win3_3.index ⟨(i 0).val / 5000, hN⟩ (0 : Fin 2) * 5000 ≤ (i 0).val
      ∧ (i 0).val < win3_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, hN⟩ (1 : Fin 2) * 128 ≤ (i 1).val
      ∧ (i 1).val < win3_3.index ⟨(i 0).val / 5000, hN⟩ (1 : Fin 2) * 128 + 128
    omega

/-- After the stage the result array is the form of the three arrays the stage found, as whole arrays. -/
theorem array_eq (c : Dev nD) :
    (dat3 V c).arrAt 3 cfg3.N = Cert.RowAffine.rect (Ideal.ofBits .f32 0x00000000#32) (V c main_v38) (V c main_v14) (V c main_v39) :=
  (dat3 V c).arrAt_eq_of_cover 3 _ (fun t _ => flushed_eq V c t) cover

end Cert.KernelIdeal.Affine3

end
-- ==== Proof.Scale4.lean ====
/-
  Dense stage one of graph-convolution layer three, on the extended reals.

  The stage takes the node features X : [100000, 128], the column S : [100000, 1] of out-degree scales and the weights
  W : [128, 64] and produces (X * S) W, the scale of node r applied to row r before the product.  The grid cuts the
  100000 rows into 20 blocks of 5000 consecutive rows; the tile of block t loads rows 5000 t .. 5000 t + 4999 of X and
  of S and all of W, and stores the layer of those three pieces as rows 5000 t .. 5000 t + 4999 of the result.  An entry
  (r, q) of the layer reads only row r of X, the entry S(r, 0) and column q of W, so the layer of a block of rows is the
  block of rows of the layer; and every row lies in exactly the block r / 5000.  Hence, whatever the buffers hold when
  the stage is entered, the result array after the stage is the layer of the three arrays as whole arrays.
-/
import proofs.«169762_j36481452212847_1_alg».proof.Proof.Gen.KernelIdeal.Frame
import Idealize.ShloMosaic.Lib.Pipeline.Value
import proofs.«169762_j36481452212847_1_alg».proof.Proof.LibScaledDense

noncomputable section

namespace Cert.KernelIdeal.Scale4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-block access, as a constant function. -/
theorem zero_offset : (![0, 0] : Fin 2 → Nat) = fun _ => 0 := funext fun a => by fin_cases a <;> rfl

/-- What the tile stores is the scaled dense layer of the three blocks it loaded: the column spread over the block and
    multiplied in, both operands passed to the matrix unit in bfloat16 (no change to an extended real), the product
    taken into a zero accumulator. -/
theorem tile_eq (x0 : FVec Ideal S5000x128 .f32) (x1 : FVec Ideal S5000x1 .f32) (x2 : FVec Ideal S128x64 .f32) :
    k4_pay1 (F := Ideal) x0 x1 x2 = Cert.ScaledDense.spec x0 x1 x2 := by
  unfold k4_pay1
  dsimp only
  rw [shapeCast_self x0]
  rw [Cert.ScaledDense.tile_scaled]
  funext j
  obtain ⟨r, q, rfl⟩ : ∃ (r : Fin 5000) (q : Fin 64), j = ix2 r q := ⟨j 0, j 1, eq_ix2 j⟩
  exact Cert.LibMatmulPlain.matmul_zero_apply dot_S5000x128_S128x64_S5000x64_1_0_0_1_n_n rfl rfl rfl rfl rfl rfl none _ _ r q

/-- The block index maps over the grid: the feature block, the scale block and the result block of point t all start
    at row block t and column block 0, and the weights are one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Grid point t writes back block t of the layer of the arrays the stage found. -/
theorem flushed_eq (c : Dev nD) (t : Fin cfg4.N) :
    (dat4 V c).flushed 3 t = ((cfg4.win 3).blk t).view.read (Elt Ideal)
      (Cert.ScaledDense.spec (V c main_v40) (V c main_v13) (V c main_arg7)) := by
  show (cfg4.win 3).cut (grid4.coords t) ((dat4 V c).after 3 t) = _
  rw [after4_3]
  unfold out4_3
  rw [View.canon_unit_zero zero_offset]
  simp only [View.ld_unit_zero (S := S5000x128) zero_offset, View.ld_unit_zero (S := S5000x1) zero_offset,
    View.ld_unit_zero (S := S128x64) zero_offset]
  rw [tile_eq]
  obtain ⟨e00, e01, e10, e11, e20, e21, e30, e31⟩ := idx_facts t
  funext y
  have hy0 : (y 0).val < 5000 := (y 0).isLt
  have hy1 : (y 1).val < 64 := (y 1).isLt
  refine Cert.ScaledDense.spec_congr_at (a := 5000) (k := 128) (n := 64) (a' := 100000) (n' := 64)
    (iblk4 V c 0 t) (iblk4 V c 1 t) (iblk4 V c 2 t) (V c main_v40) (V c main_v13) (V c main_arg7)
    y (((cfg4.win 3).blk t).view.emb y) (fun k => ?_) ?_ (fun k => ?_)
  · show V c main_v40 (((cfg4.win 0).blk t).view.emb (ix2 (y 0) k)) = V c main_v40 (ix2 ((((cfg4.win 3).blk t).view.emb y) 0) k)
    refine congrArg (V c main_v40) (funext fun a => Fin.ext ?_)
    match a with
    | ⟨0, _⟩ => show win4_0.index t (0 : Fin 2) * 5000 + 1 * (y 0).val = win4_3.index t (0 : Fin 2) * 5000 + 1 * (y 0).val; omega
    | ⟨1, _⟩ => show win4_0.index t (1 : Fin 2) * 128 + 1 * k.val = k.val; omega
  · show V c main_v13 (((cfg4.win 1).blk t).view.emb (ix2 (y 0) (0 : Fin 1))) = V c main_v13 (ix2 ((((cfg4.win 3).blk t).view.emb y) 0) (0 : Fin 1))
    refine congrArg (V c main_v13) (funext fun a => Fin.ext ?_)
    match a with
    | ⟨0, _⟩ => show win4_1.index t (0 : Fin 2) * 5000 + 1 * (y 0).val = win4_3.index t (0 : Fin 2) * 5000 + 1 * (y 0).val; omega
    | ⟨1, _⟩ => show win4_1.index t (1 : Fin 2) * 1 + 1 * 0 = 0; omega
  · show V c main_arg7 (((cfg4.win 2).blk t).view.emb (ix2 k (y 1))) = V c main_arg7 (ix2 k ((((cfg4.win 3).blk t).view.emb y) 1))
    refine congrArg (V c main_arg7) (funext fun a => Fin.ext ?_)
    match a with
    | ⟨0, _⟩ => show win4_2.index t (0 : Fin 2) * 128 + 1 * k.val = k.val; omega
    | ⟨1, _⟩ => show win4_2.index t (1 : Fin 2) * 64 + 1 * (y 1).val = win4_3.index t (1 : Fin 2) * 64 + 1 * (y 1).val; omega

/-- An index of the result array lies in point t's block iff each coordinate lies in the block's range on its axis. -/
theorem mem_blk (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v41).slice (win4_3.rect t)).set ↔ _
  rw [View.set_slice_whole, Rect.mem_set_unit]
  exact Iff.rfl

/-- Every entry of the result lies in the block of some grid point: row r in block r / 5000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : (i 0).val / 5000 < cfg4.N := by show (i 0).val / 5000 < 20; omega
  obtain ⟨-, -, -, -, -, -, e30, e31⟩ := idx_facts ⟨(i 0).val / 5000, hN⟩
  refine ⟨⟨(i 0).val / 5000, hN⟩, flush4_3 _, ?_⟩
  rw [mem_blk]
  intro a
  match a with
  | ⟨0, _⟩ =>
    show win4_3.index ⟨(i 0).val / 5000, hN⟩ (0 : Fin 2) * 5000 ≤ (i 0).val
      ∧ (i 0).val < win4_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win4_3.index ⟨(i 0).val / 5000, hN⟩ (1 : Fin 2) * 64 ≤ (i 1).val
      ∧ (i 1).val < win4_3.index ⟨(i 0).val / 5000, hN⟩ (1 : Fin 2) * 64 + 64
    omega

/-- After the stage the result array is the scaled dense layer of the three arrays the stage found, as whole arrays. -/
theorem array_eq (c : Dev nD) :
    (dat4 V c).arrAt 3 cfg4.N = Cert.ScaledDense.spec (V c main_v40) (V c main_v13) (V c main_arg7) :=
  (dat4 V c).arrAt_eq_of_cover 3 _ (fun t _ => flushed_eq V c t) cover

end Cert.KernelIdeal.Scale4

end
-- ==== Proof.Affine5.lean ====
/-
  Dense stage two of graph-convolution layer three, on the extended reals.

  The stage takes the aggregated features P : [100000, 64], the column S : [100000, 1] of in-degree scales and the bias
  row B : [1, 64] and produces P(r, q) * S(r, 0) + B(0, q) (the last layer has no rectifier).  The grid cuts the 100000 rows into 20 blocks of
  5000 consecutive rows; the tile of block t loads rows 5000 t .. 5000 t + 4999 of P and of S and the whole bias row, and
  stores the form of those three pieces as rows 5000 t .. 5000 t + 4999 of the result.  An entry (r, q) of the form reads
  only P(r, q), S(r, 0) and B(0, q), so the form of a block of rows is the block of rows of the form; and every row lies
  in exactly the block r / 5000.  Hence, whatever the buffers hold when the stage is entered, the result array after the
  stage is the form of the three arrays as whole arrays.
-/
import proofs.«169762_j36481452212847_1_alg».proof.Proof.Gen.KernelIdeal.Frame
import Idealize.ShloMosaic.Lib.Pipeline.Value
import proofs.«169762_j36481452212847_1_alg».proof.Proof.LibRowAffine

noncomputable section

namespace Cert.KernelIdeal.Affine5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-block access, as a constant function. -/
theorem zero_offset : (![0, 0] : Fin 2 → Nat) = fun _ => 0 := funext fun a => by fin_cases a <;> rfl

/-- What the tile stores is the affine form of the three blocks it loaded: the column and the bias row spread over the
    block, an elementwise product and sum. -/
theorem tile_eq (x0 : FVec Ideal S5000x64 .f32) (x1 : FVec Ideal S5000x1 .f32) (x2 : FVec Ideal S1x64 .f32) :
    k5_pay1 (F := Ideal) x0 x1 x2 = Cert.RowAffine.spec x0 x1 x2 := by
  unfold k5_pay1
  dsimp only
  exact Cert.RowAffine.tile_eq_spec x0 x1 x2 _ _ _ _ _

/-- The block index maps over the grid: the feature block, the scale block and the result block of point t all start
    at row block t and column block 0, and the bias row is one block. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Grid point t writes back block t of the form of the arrays the stage found. -/
theorem flushed_eq (c : Dev nD) (t : Fin cfg5.N) :
    (dat5 V c).flushed 3 t = ((cfg5.win 3).blk t).view.read (Elt Ideal)
      (Cert.RowAffine.spec (V c main_v51) (V c main_v14) (V c main_v52)) := by
  show (cfg5.win 3).cut (grid5.coords t) ((dat5 V c).after 3 t) = _
  rw [after5_3]
  unfold out5_3
  rw [View.canon_unit_zero zero_offset]
  simp only [View.ld_unit_zero (S := S5000x64) zero_offset, View.ld_unit_zero (S := S5000x1) zero_offset,
    View.ld_unit_zero (S := S1x64) zero_offset]
  rw [tile_eq]
  obtain ⟨e00, e01, e10, e11, e20, e21, e30, e31⟩ := idx_facts t
  funext y
  have hy0 : (y 0).val < 5000 := (y 0).isLt
  have hy1 : (y 1).val < 64 := (y 1).isLt
  refine Cert.RowAffine.spec_congr_at (a := 5000) (n := 64) (a' := 100000) (n' := 64)
    (iblk5 V c 0 t) (iblk5 V c 1 t) (iblk5 V c 2 t) (V c main_v51) (V c main_v14) (V c main_v52)
    y (((cfg5.win 3).blk t).view.emb y) ?_ ?_ ?_
  · show V c main_v51 (((cfg5.win 0).blk t).view.emb y) = V c main_v51 (((cfg5.win 3).blk t).view.emb y)
    refine congrArg (V c main_v51) (funext fun a => Fin.ext ?_)
    match a with
    | ⟨0, _⟩ => show win5_0.index t (0 : Fin 2) * 5000 + 1 * (y 0).val = win5_3.index t (0 : Fin 2) * 5000 + 1 * (y 0).val; omega
    | ⟨1, _⟩ => show win5_0.index t (1 : Fin 2) * 64 + 1 * (y 1).val = win5_3.index t (1 : Fin 2) * 64 + 1 * (y 1).val; omega
  · show V c main_v14 (((cfg5.win 1).blk t).view.emb (ix2 (y 0) (0 : Fin 1))) = V c main_v14 (ix2 ((((cfg5.win 3).blk t).view.emb y) 0) (0 : Fin 1))
    refine congrArg (V c main_v14) (funext fun a => Fin.ext ?_)
    match a with
    | ⟨0, _⟩ => show win5_1.index t (0 : Fin 2) * 5000 + 1 * (y 0).val = win5_3.index t (0 : Fin 2) * 5000 + 1 * (y 0).val; omega
    | ⟨1, _⟩ => show win5_1.index t (1 : Fin 2) * 1 + 1 * 0 = 0; omega
  · show V c main_v52 (((cfg5.win 2).blk t).view.emb (ix2 (0 : Fin 1) (y 1))) = V c main_v52 (ix2 (0 : Fin 1) ((((cfg5.win 3).blk t).view.emb y) 1))
    refine congrArg (V c main_v52) (funext fun a => Fin.ext ?_)
    match a with
    | ⟨0, _⟩ => show win5_2.index t (0 : Fin 2) * 1 + 1 * 0 = 0; omega
    | ⟨1, _⟩ => show win5_2.index t (1 : Fin 2) * 64 + 1 * (y 1).val = win5_3.index t (1 : Fin 2) * 64 + 1 * (y 1).val; omega

/-- An index of the result array lies in point t's block iff each coordinate lies in the block's range on its axis. -/
theorem mem_blk (t : Fin cfg5.N) (i : S100000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v53).slice (win5_3.rect t)).set ↔ _
  rw [View.set_slice_whole, Rect.mem_set_unit]
  exact Iff.rfl

/-- Every entry of the result lies in the block of some grid point: row r in block r / 5000. -/
theorem cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : (i 0).val / 5000 < cfg5.N := by show (i 0).val / 5000 < 20; omega
  obtain ⟨-, -, -, -, -, -, e30, e31⟩ := idx_facts ⟨(i 0).val / 5000, hN⟩
  refine ⟨⟨(i 0).val / 5000, hN⟩, flush5_3 _, ?_⟩
  rw [mem_blk]
  intro a
  match a with
  | ⟨0, _⟩ =>
    show win5_3.index ⟨(i 0).val / 5000, hN⟩ (0 : Fin 2) * 5000 ≤ (i 0).val
      ∧ (i 0).val < win5_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, hN⟩ (1 : Fin 2) * 64 ≤ (i 1).val
      ∧ (i 1).val < win5_3.index ⟨(i 0).val / 5000, hN⟩ (1 : Fin 2) * 64 + 64
    omega

/-- After the stage the result array is the form of the three arrays the stage found, as whole arrays. -/
theorem array_eq (c : Dev nD) :
    (dat5 V c).arrAt 3 cfg5.N = Cert.RowAffine.spec (V c main_v51) (V c main_v14) (V c main_v52) :=
  (dat5 V c).arrAt_eq_of_cover 3 _ (fun t _ => flushed_eq V c t) cover

end Cert.KernelIdeal.Affine5

end
-- ==== Proof.Net.lean ====
/-
  A three-layer graph convolution with degree normalisation on both sides, as one function on the extended reals.

  One layer takes node features X : [N, k], weights W : [k, n], a bias row B : [1, n], the two columns of degree
  scalings sOut, sIn : [N, 1] and a neighbour aggregation agg on [N, n] arrays, and is

      layer  =  max (agg ((X * sOut) W) * sIn + B, z)        entry by entry,

  the scaled product first (row r of X multiplied by sOut(r, 0) before the product), then the aggregation, then row r
  multiplied by sIn(r, 0), the bias added in each column, and the lower bound z (the rectifier when z is zero).  The
  last layer has no lower bound.  The network is two such layers of width h and a last one of width o.
-/
import proofs.«169762_j36481452212847_1_alg».proof.Proof.LibScaledDense
import proofs.«169762_j36481452212847_1_alg».proof.Proof.LibRowAffine

noncomputable section

namespace Cert.Gcn

open Idealize.ShloMosaic

variable {N k n d h o : ℕ}

/-- A layer without the lower bound: scale, multiply, aggregate, scale, add the bias. -/
def plainLayer (agg : ((⟨2, ![N, n]⟩ : Shape).Idx → EReal) → ((⟨2, ![N, n]⟩ : Shape).Idx → EReal))
    (sOut sIn : (⟨2, ![N, 1]⟩ : Shape).Idx → EReal) (X : (⟨2, ![N, k]⟩ : Shape).Idx → EReal)
    (W : (⟨2, ![k, n]⟩ : Shape).Idx → EReal) (B : (⟨2, ![1, n]⟩ : Shape).Idx → EReal) :
    (⟨2, ![N, n]⟩ : Shape).Idx → EReal :=
  Cert.RowAffine.spec (agg (Cert.ScaledDense.spec X sOut W)) sIn B

/-- A layer bounded below by z. -/
def layer (z : EReal) (agg : ((⟨2, ![N, n]⟩ : Shape).Idx → EReal) → ((⟨2, ![N, n]⟩ : Shape).Idx → EReal))
    (sOut sIn : (⟨2, ![N, 1]⟩ : Shape).Idx → EReal) (X : (⟨2, ![N, k]⟩ : Shape).Idx → EReal)
    (W : (⟨2, ![k, n]⟩ : Shape).Idx → EReal) (B : (⟨2, ![1, n]⟩ : Shape).Idx → EReal) :
    (⟨2, ![N, n]⟩ : Shape).Idx → EReal :=
  Cert.RowAffine.rect z (agg (Cert.ScaledDense.spec X sOut W)) sIn B

/-- Two bounded layers of width h and a plain layer of width o. -/
def net (z : EReal) (aggH : ((⟨2, ![N, h]⟩ : Shape).Idx → EReal) → ((⟨2, ![N, h]⟩ : Shape).Idx → EReal))
    (aggO : ((⟨2, ![N, o]⟩ : Shape).Idx → EReal) → ((⟨2, ![N, o]⟩ : Shape).Idx → EReal))
    (sOut sIn : (⟨2, ![N, 1]⟩ : Shape).Idx → EReal) (X : (⟨2, ![N, d]⟩ : Shape).Idx → EReal)
    (W1 : (⟨2, ![d, h]⟩ : Shape).Idx → EReal) (B1 : (⟨2, ![1, h]⟩ : Shape).Idx → EReal)
    (W2 : (⟨2, ![h, h]⟩ : Shape).Idx → EReal) (B2 : (⟨2, ![1, h]⟩ : Shape).Idx → EReal)
    (W3 : (⟨2, ![h, o]⟩ : Shape).Idx → EReal) (B3 : (⟨2, ![1, o]⟩ : Shape).Idx → EReal) :
    (⟨2, ![N, o]⟩ : Shape).Idx → EReal :=
  plainLayer aggO sOut sIn (layer z aggH sOut sIn (layer z aggH sOut sIn X W1 B1) W2 B2) W3 B3

end Cert.Gcn

end
-- ==== Proof.KernelRun.lean ====
/-
  The idealized program's run with its result named.

  @main is fourteen segments: five stretches of host operations that compute the two degree scalings, then three times
  (dense stage one, a stretch of host operations that gathers rows by source and adds them up by destination, dense stage
  two).  The buffer contents at each segment boundary are a fold from the launch memory: a host stretch applies its
  operations, a stage replaces its result array by what its write-backs leave.  Every weakly fair execution from a memory
  with zero counters terminates without a fault, and in its final state every buffer holds the last boundary's contents;
  in particular the result buffer holds the fold's value there, and the nine argument arrays are as launched.  This is the
  launch theorem for a program of several stages over the segments, applied as for the frame claim, with the result
  buffer read beside the arguments.
-/
import proofs.«169762_j36481452212847_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents and the argument arrays end as launched. -/
theorem run : θ_run defs (onTc (τ := τ) (main (F := F))) ⟨m, fun _ => 0, ρ⟩ (fun r => ∀ c : Dev nD,
      r.2.mem ((c.tc : Thread nD τ).loc main_v53) = W14 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v53 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.Result

end
-- ==== Proof.KernelValue.lean ====
/-
  The idealized program's result buffer at the last segment boundary, as the three-layer network of the arguments.

  The buffer contents at the fourteen segment boundaries are a fold from the launch memory.  Across every boundary the
  nine argument arrays keep their launch contents, and from the end of the opening on the two degree columns hold the
  degree scalings of the source and of the destination indices: a host stretch writes only its own intermediates, and a
  stage replaces only its result array (its input arrays are read through windows and left as they were).  With that,
  each stage's result is its layer form of the arrays it found, each aggregation stretch's result the aggregation of the
  stage-one result before it, and the composition is the network.
-/
import proofs.«169762_j36481452212847_1_alg».proof.Proof.Gen.KernelIdeal.Frame
import proofs.«169762_j36481452212847_1_alg».proof.Proof.HostValues
import proofs.«169762_j36481452212847_1_alg».proof.Proof.Scale0
import proofs.«169762_j36481452212847_1_alg».proof.Proof.Affine1
import proofs.«169762_j36481452212847_1_alg».proof.Proof.Scale2
import proofs.«169762_j36481452212847_1_alg».proof.Proof.Affine3
import proofs.«169762_j36481452212847_1_alg».proof.Proof.Scale4
import proofs.«169762_j36481452212847_1_alg».proof.Proof.Affine5
import proofs.«169762_j36481452212847_1_alg».proof.Proof.Net
import proofs.«169762_j36481452212847_1_alg».proof.Proof.KernelRun

noncomputable section

namespace Cert.KernelIdeal.Value

open Cert.KernelIdeal Cert.KernelIdeal.Gen Cert.KernelIdeal.Host Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg) (c : Dev nD)

/-- The lower bound of the rectifier: the zero word. -/
abbrev zeroBound : EReal := Ideal.ofBits .f32 0x00000000#32

/-- The out-degree scaling of the launch-time source indices, as a column. -/
abbrev sOut : (⟨S100000x1, .f32⟩ : BufTy).Contents (Elt Ideal) :=
  shapeCast S100000x1 (invSqrtDeg (m ((c : Thread nD τ).loc main_arg1))) shapeCasts_S100000_S100000x1
/-- The in-degree scaling of the launch-time destination indices, as a column. -/
abbrev sIn : (⟨S100000x1, .f32⟩ : BufTy).Contents (Elt Ideal) :=
  shapeCast S100000x1 (invSqrtDeg (m ((c : Thread nD τ).loc main_arg2))) shapeCasts_S100000_S100000x1

/-- What every boundary from the end of the opening on still holds: the arguments as launched, the two columns. -/
structure Keeps (X : Valuation τ sig (Elt Ideal)) : Prop where
  a0 : X (Proc.devRef .tc main_arg0) = m ((c : Thread nD τ).loc main_arg0)
  a1 : X (Proc.devRef .tc main_arg1) = m ((c : Thread nD τ).loc main_arg1)
  a2 : X (Proc.devRef .tc main_arg2) = m ((c : Thread nD τ).loc main_arg2)
  a3 : X (Proc.devRef .tc main_arg3) = m ((c : Thread nD τ).loc main_arg3)
  a4 : X (Proc.devRef .tc main_arg4) = m ((c : Thread nD τ).loc main_arg4)
  a5 : X (Proc.devRef .tc main_arg5) = m ((c : Thread nD τ).loc main_arg5)
  a6 : X (Proc.devRef .tc main_arg6) = m ((c : Thread nD τ).loc main_arg6)
  a7 : X (Proc.devRef .tc main_arg7) = m ((c : Thread nD τ).loc main_arg7)
  a8 : X (Proc.devRef .tc main_arg8) = m ((c : Thread nD τ).loc main_arg8)
  out : X (Proc.devRef .tc main_v13) = sOut m c
  inn : X (Proc.devRef .tc main_v14) = sIn m c

/-! ## The invariant, boundary by boundary -/

/-- At the end of the opening: no opening stretch writes an argument, and the two columns are the degree scalings. -/
theorem keeps5 : Keeps m c (W5 m ρ c) where
  a0 := opening_keep (W0 m ρ c) main_arg0 (by decide) (by decide) (by decide) (by decide) (by decide)
  a1 := opening_keep (W0 m ρ c) main_arg1 (by decide) (by decide) (by decide) (by decide) (by decide)
  a2 := opening_keep (W0 m ρ c) main_arg2 (by decide) (by decide) (by decide) (by decide) (by decide)
  a3 := opening_keep (W0 m ρ c) main_arg3 (by decide) (by decide) (by decide) (by decide) (by decide)
  a4 := opening_keep (W0 m ρ c) main_arg4 (by decide) (by decide) (by decide) (by decide) (by decide)
  a5 := opening_keep (W0 m ρ c) main_arg5 (by decide) (by decide) (by decide) (by decide) (by decide)
  a6 := opening_keep (W0 m ρ c) main_arg6 (by decide) (by decide) (by decide) (by decide) (by decide)
  a7 := opening_keep (W0 m ρ c) main_arg7 (by decide) (by decide) (by decide) (by decide) (by decide)
  a8 := opening_keep (W0 m ρ c) main_arg8 (by decide) (by decide) (by decide) (by decide) (by decide)
  out := opening_out (W0 m ρ c)
  inn := opening_in (W0 m ρ c)

/-- Stage 0 replaces only its result array: the arguments and the two columns are as before it. -/
theorem keeps6 (h : Keeps m c (W5 m ρ c)) : Keeps m c (W6 m ρ c) where
  a0 := ((W6_arr m ρ c 0).trans (((dat0 (V5 m ρ) c).arrAt_in 0 rfl _).trans (A_eq0 (V5 m ρ) c 0))).trans h.a0
  a1 := (W6_of_ne m ρ c main_arg1 (by decide)).trans h.a1
  a2 := (W6_of_ne m ρ c main_arg2 (by decide)).trans h.a2
  a3 := ((W6_arr m ρ c 2).trans (((dat0 (V5 m ρ) c).arrAt_in 2 rfl _).trans (A_eq0 (V5 m ρ) c 2))).trans h.a3
  a4 := (W6_of_ne m ρ c main_arg4 (by decide)).trans h.a4
  a5 := (W6_of_ne m ρ c main_arg5 (by decide)).trans h.a5
  a6 := (W6_of_ne m ρ c main_arg6 (by decide)).trans h.a6
  a7 := (W6_of_ne m ρ c main_arg7 (by decide)).trans h.a7
  a8 := (W6_of_ne m ρ c main_arg8 (by decide)).trans h.a8
  out := ((W6_arr m ρ c 1).trans (((dat0 (V5 m ρ) c).arrAt_in 1 rfl _).trans (A_eq0 (V5 m ρ) c 1))).trans h.out
  inn := (W6_of_ne m ρ c main_v14 (by decide)).trans h.inn

/-- The aggregation stretch writes only its own intermediates: the arguments and the two columns are as before it. -/
theorem keeps7 (h : Keeps m c (W6 m ρ c)) : Keeps m c (W7 m ρ c) where
  a0 := (hostOps1_keep (W6 m ρ c) main_arg0 (by decide)).trans h.a0
  a1 := (hostOps1_keep (W6 m ρ c) main_arg1 (by decide)).trans h.a1
  a2 := (hostOps1_keep (W6 m ρ c) main_arg2 (by decide)).trans h.a2
  a3 := (hostOps1_keep (W6 m ρ c) main_arg3 (by decide)).trans h.a3
  a4 := (hostOps1_keep (W6 m ρ c) main_arg4 (by decide)).trans h.a4
  a5 := (hostOps1_keep (W6 m ρ c) main_arg5 (by decide)).trans h.a5
  a6 := (hostOps1_keep (W6 m ρ c) main_arg6 (by decide)).trans h.a6
  a7 := (hostOps1_keep (W6 m ρ c) main_arg7 (by decide)).trans h.a7
  a8 := (hostOps1_keep (W6 m ρ c) main_arg8 (by decide)).trans h.a8
  out := (hostOps1_keep (W6 m ρ c) main_v13 (by decide)).trans h.out
  inn := (hostOps1_keep (W6 m ρ c) main_v14 (by decide)).trans h.inn

/-- Stage 1 replaces only its result array: the arguments and the two columns are as before it. -/
theorem keeps8 (h : Keeps m c (W7 m ρ c)) : Keeps m c (W8 m ρ c) where
  a0 := (W8_of_ne m ρ c main_arg0 (by decide)).trans h.a0
  a1 := (W8_of_ne m ρ c main_arg1 (by decide)).trans h.a1
  a2 := (W8_of_ne m ρ c main_arg2 (by decide)).trans h.a2
  a3 := (W8_of_ne m ρ c main_arg3 (by decide)).trans h.a3
  a4 := (W8_of_ne m ρ c main_arg4 (by decide)).trans h.a4
  a5 := (W8_of_ne m ρ c main_arg5 (by decide)).trans h.a5
  a6 := (W8_of_ne m ρ c main_arg6 (by decide)).trans h.a6
  a7 := (W8_of_ne m ρ c main_arg7 (by decide)).trans h.a7
  a8 := (W8_of_ne m ρ c main_arg8 (by decide)).trans h.a8
  out := (W8_of_ne m ρ c main_v13 (by decide)).trans h.out
  inn := ((W8_arr m ρ c 1).trans (((dat1 (V7 m ρ) c).arrAt_in 1 rfl _).trans (A_eq1 (V7 m ρ) c 1))).trans h.inn

/-- Stage 2 replaces only its result array: the arguments and the two columns are as before it. -/
theorem keeps9 (h : Keeps m c (W8 m ρ c)) : Keeps m c (W9 m ρ c) where
  a0 := (W9_of_ne m ρ c main_arg0 (by decide)).trans h.a0
  a1 := (W9_of_ne m ρ c main_arg1 (by decide)).trans h.a1
  a2 := (W9_of_ne m ρ c main_arg2 (by decide)).trans h.a2
  a3 := (W9_of_ne m ρ c main_arg3 (by decide)).trans h.a3
  a4 := (W9_of_ne m ρ c main_arg4 (by decide)).trans h.a4
  a5 := ((W9_arr m ρ c 2).trans (((dat2 (V8 m ρ) c).arrAt_in 2 rfl _).trans (A_eq2 (V8 m ρ) c 2))).trans h.a5
  a6 := (W9_of_ne m ρ c main_arg6 (by decide)).trans h.a6
  a7 := (W9_of_ne m ρ c main_arg7 (by decide)).trans h.a7
  a8 := (W9_of_ne m ρ c main_arg8 (by decide)).trans h.a8
  out := ((W9_arr m ρ c 1).trans (((dat2 (V8 m ρ) c).arrAt_in 1 rfl _).trans (A_eq2 (V8 m ρ) c 1))).trans h.out
  inn := (W9_of_ne m ρ c main_v14 (by decide)).trans h.inn

/-- The aggregation stretch writes only its own intermediates: the arguments and the two columns are as before it. -/
theorem keeps10 (h : Keeps m c (W9 m ρ c)) : Keeps m c (W10 m ρ c) where
  a0 := (hostOps3_keep (W9 m ρ c) main_arg0 (by decide)).trans h.a0
  a1 := (hostOps3_keep (W9 m ρ c) main_arg1 (by decide)).trans h.a1
  a2 := (hostOps3_keep (W9 m ρ c) main_arg2 (by decide)).trans h.a2
  a3 := (hostOps3_keep (W9 m ρ c) main_arg3 (by decide)).trans h.a3
  a4 := (hostOps3_keep (W9 m ρ c) main_arg4 (by decide)).trans h.a4
  a5 := (hostOps3_keep (W9 m ρ c) main_arg5 (by decide)).trans h.a5
  a6 := (hostOps3_keep (W9 m ρ c) main_arg6 (by decide)).trans h.a6
  a7 := (hostOps3_keep (W9 m ρ c) main_arg7 (by decide)).trans h.a7
  a8 := (hostOps3_keep (W9 m ρ c) main_arg8 (by decide)).trans h.a8
  out := (hostOps3_keep (W9 m ρ c) main_v13 (by decide)).trans h.out
  inn := (hostOps3_keep (W9 m ρ c) main_v14 (by decide)).trans h.inn

/-- Stage 3 replaces only its result array: the arguments and the two columns are as before it. -/
theorem keeps11 (h : Keeps m c (W10 m ρ c)) : Keeps m c (W11 m ρ c) where
  a0 := (W11_of_ne m ρ c main_arg0 (by decide)).trans h.a0
  a1 := (W11_of_ne m ρ c main_arg1 (by decide)).trans h.a1
  a2 := (W11_of_ne m ρ c main_arg2 (by decide)).trans h.a2
  a3 := (W11_of_ne m ρ c main_arg3 (by decide)).trans h.a3
  a4 := (W11_of_ne m ρ c main_arg4 (by decide)).trans h.a4
  a5 := (W11_of_ne m ρ c main_arg5 (by decide)).trans h.a5
  a6 := (W11_of_ne m ρ c main_arg6 (by decide)).trans h.a6
  a7 := (W11_of_ne m ρ c main_arg7 (by decide)).trans h.a7
  a8 := (W11_of_ne m ρ c main_arg8 (by decide)).trans h.a8
  out := (W11_of_ne m ρ c main_v13 (by decide)).trans h.out
  inn := ((W11_arr m ρ c 1).trans (((dat3 (V10 m ρ) c).arrAt_in 1 rfl _).trans (A_eq3 (V10 m ρ) c 1))).trans h.inn

/-- Stage 4 replaces only its result array: the arguments and the two columns are as before it. -/
theorem keeps12 (h : Keeps m c (W11 m ρ c)) : Keeps m c (W12 m ρ c) where
  a0 := (W12_of_ne m ρ c main_arg0 (by decide)).trans h.a0
  a1 := (W12_of_ne m ρ c main_arg1 (by decide)).trans h.a1
  a2 := (W12_of_ne m ρ c main_arg2 (by decide)).trans h.a2
  a3 := (W12_of_ne m ρ c main_arg3 (by decide)).trans h.a3
  a4 := (W12_of_ne m ρ c main_arg4 (by decide)).trans h.a4
  a5 := (W12_of_ne m ρ c main_arg5 (by decide)).trans h.a5
  a6 := (W12_of_ne m ρ c main_arg6 (by decide)).trans h.a6
  a7 := ((W12_arr m ρ c 2).trans (((dat4 (V11 m ρ) c).arrAt_in 2 rfl _).trans (A_eq4 (V11 m ρ) c 2))).trans h.a7
  a8 := (W12_of_ne m ρ c main_arg8 (by decide)).trans h.a8
  out := ((W12_arr m ρ c 1).trans (((dat4 (V11 m ρ) c).arrAt_in 1 rfl _).trans (A_eq4 (V11 m ρ) c 1))).trans h.out
  inn := (W12_of_ne m ρ c main_v14 (by decide)).trans h.inn

/-- The aggregation stretch writes only its own intermediates: the arguments and the two columns are as before it. -/
theorem keeps13 (h : Keeps m c (W12 m ρ c)) : Keeps m c (W13 m ρ c) where
  a0 := (hostOps5_keep (W12 m ρ c) main_arg0 (by decide)).trans h.a0
  a1 := (hostOps5_keep (W12 m ρ c) main_arg1 (by decide)).trans h.a1
  a2 := (hostOps5_keep (W12 m ρ c) main_arg2 (by decide)).trans h.a2
  a3 := (hostOps5_keep (W12 m ρ c) main_arg3 (by decide)).trans h.a3
  a4 := (hostOps5_keep (W12 m ρ c) main_arg4 (by decide)).trans h.a4
  a5 := (hostOps5_keep (W12 m ρ c) main_arg5 (by decide)).trans h.a5
  a6 := (hostOps5_keep (W12 m ρ c) main_arg6 (by decide)).trans h.a6
  a7 := (hostOps5_keep (W12 m ρ c) main_arg7 (by decide)).trans h.a7
  a8 := (hostOps5_keep (W12 m ρ c) main_arg8 (by decide)).trans h.a8
  out := (hostOps5_keep (W12 m ρ c) main_v13 (by decide)).trans h.out
  inn := (hostOps5_keep (W12 m ρ c) main_v14 (by decide)).trans h.inn

/-! ## The values, boundary by boundary -/

/-- Layer one, stage one. -/
theorem val6 : W6 m ρ c (Proc.devRef .tc main_v15) = Cert.ScaledDense.spec (m ((c : Thread nD τ).loc main_arg0)) (sOut m c) (m ((c : Thread nD τ).loc main_arg3)) := by
  have h := keeps5 m ρ c
  rw [← h.a0, ← h.out, ← h.a3]
  exact (W6_arr m ρ c 3).trans (Cert.KernelIdeal.Scale0.array_eq (V5 m ρ) c)

/-- Layer one, the aggregate and the bias row. -/
theorem val7 : W7 m ρ c (Proc.devRef .tc main_v25)
    = gatherSum128 (m ((c : Thread nD τ).loc main_arg1)) (m ((c : Thread nD τ).loc main_arg2)) (W6 m ρ c (Proc.devRef .tc main_v15)) := by
  have h := keeps6 m ρ c (keeps5 m ρ c)
  rw [← h.a1, ← h.a2]
  exact hostOps1_agg (W6 m ρ c)
theorem val7b : W7 m ρ c (Proc.devRef .tc main_v26) = shapeCast S1x128 (m ((c : Thread nD τ).loc main_arg4)) shapeCasts_S128_S1x128 := by
  have h := keeps6 m ρ c (keeps5 m ρ c)
  rw [← h.a4]
  exact hostOps1_bias (W6 m ρ c)

/-- Layer one, stage two. -/
theorem val8 : W8 m ρ c (Proc.devRef .tc main_v27)
    = Cert.RowAffine.rect zeroBound (W7 m ρ c (Proc.devRef .tc main_v25)) (sIn m c) (W7 m ρ c (Proc.devRef .tc main_v26)) := by
  have h := keeps7 m ρ c (keeps6 m ρ c (keeps5 m ρ c))
  rw [← h.inn]
  exact (W8_arr m ρ c 3).trans (Cert.KernelIdeal.Affine1.array_eq (V7 m ρ) c)

/-- Layer two, stage one. -/
theorem val9 : W9 m ρ c (Proc.devRef .tc main_v28)
    = Cert.ScaledDense.spec (W8 m ρ c (Proc.devRef .tc main_v27)) (sOut m c) (m ((c : Thread nD τ).loc main_arg5)) := by
  have h := keeps8 m ρ c (keeps7 m ρ c (keeps6 m ρ c (keeps5 m ρ c)))
  rw [← h.out, ← h.a5]
  exact (W9_arr m ρ c 3).trans (Cert.KernelIdeal.Scale2.array_eq (V8 m ρ) c)

/-- The invariant at the end of stage three (layer two, stage one). -/
theorem keeps9' : Keeps m c (W9 m ρ c) := keeps9 m ρ c (keeps8 m ρ c (keeps7 m ρ c (keeps6 m ρ c (keeps5 m ρ c))))

/-- Layer two, the aggregate and the bias row. -/
theorem val10 : W10 m ρ c (Proc.devRef .tc main_v38)
    = gatherSum128 (m ((c : Thread nD τ).loc main_arg1)) (m ((c : Thread nD τ).loc main_arg2)) (W9 m ρ c (Proc.devRef .tc main_v28)) := by
  have h := keeps9' m ρ c
  rw [← h.a1, ← h.a2]
  exact hostOps3_agg (W9 m ρ c)
theorem val10b : W10 m ρ c (Proc.devRef .tc main_v39) = shapeCast S1x128 (m ((c : Thread nD τ).loc main_arg6)) shapeCasts_S128_S1x128 := by
  have h := keeps9' m ρ c
  rw [← h.a6]
  exact hostOps3_bias (W9 m ρ c)

/-- Layer two, stage two. -/
theorem val11 : W11 m ρ c (Proc.devRef .tc main_v40)
    = Cert.RowAffine.rect zeroBound (W10 m ρ c (Proc.devRef .tc main_v38)) (sIn m c) (W10 m ρ c (Proc.devRef .tc main_v39)) := by
  have h := keeps10 m ρ c (keeps9' m ρ c)
  rw [← h.inn]
  exact (W11_arr m ρ c 3).trans (Cert.KernelIdeal.Affine3.array_eq (V10 m ρ) c)

/-- Layer three, stage one. -/
theorem val12 : W12 m ρ c (Proc.devRef .tc main_v41)
    = Cert.ScaledDense.spec (W11 m ρ c (Proc.devRef .tc main_v40)) (sOut m c) (m ((c : Thread nD τ).loc main_arg7)) := by
  have h := keeps11 m ρ c (keeps10 m ρ c (keeps9' m ρ c))
  rw [← h.out, ← h.a7]
  exact (W12_arr m ρ c 3).trans (Cert.KernelIdeal.Scale4.array_eq (V11 m ρ) c)

/-- The invariant at the end of stage five (layer three, stage one). -/
theorem keeps12' : Keeps m c (W12 m ρ c) := keeps12 m ρ c (keeps11 m ρ c (keeps10 m ρ c (keeps9' m ρ c)))

/-- Layer three, the aggregate and the bias row. -/
theorem val13 : W13 m ρ c (Proc.devRef .tc main_v51)
    = gatherSum64 (m ((c : Thread nD τ).loc main_arg1)) (m ((c : Thread nD τ).loc main_arg2)) (W12 m ρ c (Proc.devRef .tc main_v41)) := by
  have h := keeps12' m ρ c
  rw [← h.a1, ← h.a2]
  exact hostOps5_agg (W12 m ρ c)
theorem val13b : W13 m ρ c (Proc.devRef .tc main_v52) = shapeCast S1x64 (m ((c : Thread nD τ).loc main_arg8)) shapeCasts_S64_S1x64 := by
  have h := keeps12' m ρ c
  rw [← h.a8]
  exact hostOps5_bias (W12 m ρ c)

/-- Layer three, stage two: the result buffer. -/
theorem val14 : W14 m ρ c (Proc.devRef .tc main_v53)
    = Cert.RowAffine.spec (W13 m ρ c (Proc.devRef .tc main_v51)) (sIn m c) (W13 m ρ c (Proc.devRef .tc main_v52)) := by
  have h := keeps13 m ρ c (keeps12' m ρ c)
  rw [← h.inn]
  exact (W14_arr m ρ c 3).trans (Cert.KernelIdeal.Affine5.array_eq (V13 m ρ) c)

/-- THE RESULT: at the last boundary the result buffer holds the network of the launch-time arguments. -/
theorem result_eq : W14 m ρ c (Proc.devRef .tc main_v53)
    = Cert.Gcn.net zeroBound (gatherSum128 (m ((c : Thread nD τ).loc main_arg1)) (m ((c : Thread nD τ).loc main_arg2))) (gatherSum64 (m ((c : Thread nD τ).loc main_arg1)) (m ((c : Thread nD τ).loc main_arg2))) (sOut m c) (sIn m c)
        (m ((c : Thread nD τ).loc main_arg0)) (m ((c : Thread nD τ).loc main_arg3)) (shapeCast S1x128 (m ((c : Thread nD τ).loc main_arg4)) shapeCasts_S128_S1x128)
        (m ((c : Thread nD τ).loc main_arg5)) (shapeCast S1x128 (m ((c : Thread nD τ).loc main_arg6)) shapeCasts_S128_S1x128)
        (m ((c : Thread nD τ).loc main_arg7)) (shapeCast S1x64 (m ((c : Thread nD τ).loc main_arg8)) shapeCasts_S64_S1x64) := by
  rw [val14, val13, val13b, val12, val11, val10, val10b, val9, val8, val7, val7b, val6]
  rfl

/-- The network of the launch-time arguments, as the result buffer's contents. -/
def netOf (c : Dev nD) : Buf (Elt Ideal) ((c.tc : Thread nD τ).loc main_v53) :=
  Cert.Gcn.net zeroBound (gatherSum128 (m ((c : Thread nD τ).loc main_arg1)) (m ((c : Thread nD τ).loc main_arg2))) (gatherSum64 (m ((c : Thread nD τ).loc main_arg1)) (m ((c : Thread nD τ).loc main_arg2))) (sOut m c) (sIn m c)
    (m ((c : Thread nD τ).loc main_arg0)) (m ((c : Thread nD τ).loc main_arg3)) (shapeCast S1x128 (m ((c : Thread nD τ).loc main_arg4)) shapeCasts_S128_S1x128)
    (m ((c : Thread nD τ).loc main_arg5)) (shapeCast S1x128 (m ((c : Thread nD τ).loc main_arg6)) shapeCasts_S128_S1x128)
    (m ((c : Thread nD τ).loc main_arg7)) (shapeCast S1x64 (m ((c : Thread nD τ).loc main_arg8)) shapeCasts_S64_S1x64)

/-- THE RUN, READ: every weakly fair execution of the idealized program terminates, nothing faulting, with the result
    buffer at the network of the launch-time arguments and the arguments as launched. -/
theorem run : θ_run defs (onTc (τ := τ) (main (F := Ideal))) ⟨m, fun _ => 0, ρ⟩ (fun r => ∀ c : Dev nD,
      r.2.mem ((c.tc : Thread nD τ).loc main_v53) = netOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩)
    (Cert.KernelIdeal.Result.run (F := Ideal) m ρ)

end Cert.KernelIdeal.Value

end
-- ==== Proof.RefForm.lean ====
/-
  The reference program's result as the three-layer network, on the extended reals.

  The reference computes the two degree scalings (edge counts clamped below at one, to the power -1/2), lays each out as
  a column and spreads it over the array it multiplies; every layer is a product of the scaled features with the weights,
  a gather of rows by source index added up by destination index, the in-degree scaling, the bias row spread over the
  array and added, and for the first two layers a maximum with zero.  Stage by stage these are the scaled dense layer,
  the aggregation and the affine form of the network, with the columns and bias rows in the host's layout.
-/
import proofs.«169762_j36481452212847_1_alg».proof.Proof.Gen.ReferenceIdeal.Read
import proofs.«169762_j36481452212847_1_alg».proof.Proof.Net

noncomputable section

namespace Cert.ReferenceIdeal.Form

open Cert.ReferenceIdeal Cert.ReferenceIdeal.Gen Cert.ReferenceIdeal.Read Idealize.ShloMosaic Idealize.ShloMosaic.TcCoe Idealize.SL.Sem

/-- The lower bound of the rectifier: the zero word. -/
abbrev zeroBound : EReal := Ideal.ofBits .f32 0x00000000#32

/-- The degree scaling of an index array: the count of edges at each node (ones added up by index, from zero), clamped
    below at one, to the power -1/2. -/
def invSqrtDeg (idx : (⟨S1600000, .i32⟩ : BufTy).Contents (Elt Ideal)) : (⟨S100000, .f32⟩ : BufTy).Contents (Elt Ideal) :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))
    (broadcastInDim S100000 ![] bcast_S_S100000 (constant (F := Ideal) S_ .f32 0xBF000000#32))

/-- Neighbour aggregation of an [100000, 128] array: row e of the gathered array is the row of h that the source index of
    edge e names (a negative index counted from the end), and the rows are added up into the row the destination index
    names, starting from zero. -/
def gatherSum128 (src dst : (⟨S1600000, .i32⟩ : BufTy).Contents (Elt Ideal))
    (h : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Neighbour aggregation of an [100000, 64] array: row e of the gathered array is the row of h that the source index of
    edge e names (a negative index counted from the end), and the rows are added up into the row the destination index
    names, starting from zero. -/
def gatherSum64 (src dst : (⟨S1600000, .i32⟩ : BufTy).Contents (Elt Ideal))
    (h : (⟨S100000x64, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A vector [100000] as a column in the host's layout. -/
abbrev col (y : (⟨S100000, .f32⟩ : BufTy).Contents (Elt Ideal)) : (⟨S100000x1, .f32⟩ : BufTy).Contents (Elt Ideal) :=
  broadcastInDim S100000x1 ![0] bcast_S100000_S100000x1_0 y
/-- A vector [128] as a row in the host's layout. -/
abbrev row128 (y : (⟨S128, .f32⟩ : BufTy).Contents (Elt Ideal)) : (⟨S1x128, .f32⟩ : BufTy).Contents (Elt Ideal) :=
  broadcastInDim S1x128 ![1] bcast_S128_S1x128_1 y
/-- A vector [64] as a row in the host's layout. -/
abbrev row64 (y : (⟨S64, .f32⟩ : BufTy).Contents (Elt Ideal)) : (⟨S1x64, .f32⟩ : BufTy).Contents (Elt Ideal) :=
  broadcastInDim S1x64 ![1] bcast_S64_S1x64_1 y

/-- Both degree stages are the degree scaling, of the source and of the destination indices. -/
theorem out_scale (x1 : (⟨S1600000, .i32⟩ : BufTy).Contents (Elt Ideal)) : val_main_v9 (F := Ideal) x1 = invSqrtDeg x1 := rfl
theorem in_scale (x2 : (⟨S1600000, .i32⟩ : BufTy).Contents (Elt Ideal)) : val_main_v12 (F := Ideal) x2 = invSqrtDeg x2 := rfl

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x64, .f32⟩ : BufTy).Contents (Elt Ideal)) (x8 : (⟨S64, .f32⟩ : BufTy).Contents (Elt Ideal))

/-- The first layer's result. -/
theorem layer_one :
    val_main_v33 (F := Ideal) x0 x1 x2 x3 x4
      = Cert.Gcn.layer zeroBound (gatherSum128 x1 x2) (col (invSqrtDeg x1)) (col (invSqrtDeg x2)) x0 x3 (row128 x4) := by
  unfold val_main_v33 val_main_v32 val_main_v29 val_main_v28 val_main_v31 val_main_call2_v0 val_main_call2_cst
    val_main_v26 val_main_v23 val_main_v16 val_main_v15 val_main_v14 val_main_v13 val_main_v27 val_main_v30
  rw [Cert.RowAffine.host_rect, Cert.RowAffine.host_eq_spec,
    Cert.ScaledDense.host_eq_spec dot_S100000x128_S128x128_S100000x128_1_0_0_1_n_n rfl rfl rfl rfl rfl rfl, out_scale, in_scale]
  rfl

/-- The second layer's result, from the first layer's. -/
theorem layer_two :
    val_main_v54 (F := Ideal) x0 x1 x2 x3 x4 x5 x6
      = Cert.Gcn.layer zeroBound (gatherSum128 x1 x2) (col (invSqrtDeg x1)) (col (invSqrtDeg x2))
          (val_main_v33 (F := Ideal) x0 x1 x2 x3 x4) x5 (row128 x6) := by
  unfold val_main_v54 val_main_v53 val_main_v50 val_main_v49 val_main_v52 val_main_call3_v0 val_main_call3_cst
    val_main_v47 val_main_v44 val_main_v37 val_main_v36 val_main_v35 val_main_v34 val_main_v48 val_main_v51
  generalize val_main_v33 (F := Ideal) x0 x1 x2 x3 x4 = y
  rw [Cert.RowAffine.host_rect, Cert.RowAffine.host_eq_spec,
    Cert.ScaledDense.host_eq_spec dot_S100000x128_S128x128_S100000x128_1_0_0_1_n_n rfl rfl rfl rfl rfl rfl, out_scale, in_scale]
  rfl

/-- The last layer's result, from the second layer's. -/
theorem layer_three :
    val_main_v74 (F := Ideal) x0 x1 x2 x3 x4 x5 x6 x7 x8
      = Cert.Gcn.plainLayer (gatherSum64 x1 x2) (col (invSqrtDeg x1)) (col (invSqrtDeg x2))
          (val_main_v54 (F := Ideal) x0 x1 x2 x3 x4 x5 x6) x7 (row64 x8) := by
  unfold val_main_v74 val_main_v71 val_main_v70 val_main_v73 val_main_v68 val_main_v65 val_main_v58 val_main_v57
    val_main_v56 val_main_v55 val_main_v69 val_main_v72
  generalize val_main_v54 (F := Ideal) x0 x1 x2 x3 x4 x5 x6 = y
  rw [Cert.RowAffine.host_eq_spec,
    Cert.ScaledDense.host_eq_spec dot_S100000x128_S128x64_S100000x64_1_0_0_1_n_n rfl rfl rfl rfl rfl rfl, out_scale, in_scale]
  rfl

/-- The reference's result is the network of its arguments. -/
theorem result_eq :
    val_main_v74 (F := Ideal) x0 x1 x2 x3 x4 x5 x6 x7 x8
      = Cert.Gcn.net zeroBound (gatherSum128 x1 x2) (gatherSum64 x1 x2) (col (invSqrtDeg x1)) (col (invSqrtDeg x2))
          x0 x3 (row128 x4) x5 (row128 x6) x7 (row64 x8) := by
  rw [layer_three, layer_two, layer_one]
  rfl

end Cert.ReferenceIdeal.Form

end
-- ==== Proof.Bridge.lean ====
/-
  The two programs' network terms are one function of the nine arguments.

  Both sides are the three-layer network over the same degree scalings and the same neighbour aggregations (the host
  operations are the same on both sides); they differ only in how a vector is laid out as a column or as a row — the
  kernel's program reshapes it, the reference lays it out along one axis — and those are one array.
-/
import proofs.«169762_j36481452212847_1_alg».proof.Proof.KernelValue
import proofs.«169762_j36481452212847_1_alg».proof.Proof.RefForm

noncomputable section

namespace Cert.Bridge

open Idealize.ShloMosaic

/-- The degree scaling is one function in both programs. -/
theorem invSqrtDeg_eq : Cert.KernelIdeal.Host.invSqrtDeg = Cert.ReferenceIdeal.Form.invSqrtDeg := rfl
/-- The neighbour aggregations are one function in both programs. -/
theorem gatherSum128_eq : Cert.KernelIdeal.Host.gatherSum128 = Cert.ReferenceIdeal.Form.gatherSum128 := rfl
theorem gatherSum64_eq : Cert.KernelIdeal.Host.gatherSum64 = Cert.ReferenceIdeal.Form.gatherSum64 := rfl

variable (x0 : (⟨Cert.KernelIdeal.S100000x128, .f32⟩ : BufTy).Contents (Elt Ideal)) (x1 x2 : (⟨Cert.KernelIdeal.S1600000, .i32⟩ : BufTy).Contents (Elt Ideal))
  (x3 : (⟨Cert.KernelIdeal.S128x128, .f32⟩ : BufTy).Contents (Elt Ideal)) (x4 : (⟨Cert.KernelIdeal.S128, .f32⟩ : BufTy).Contents (Elt Ideal))
  (x5 : (⟨Cert.KernelIdeal.S128x128, .f32⟩ : BufTy).Contents (Elt Ideal)) (x6 : (⟨Cert.KernelIdeal.S128, .f32⟩ : BufTy).Contents (Elt Ideal))
  (x7 : (⟨Cert.KernelIdeal.S128x64, .f32⟩ : BufTy).Contents (Elt Ideal)) (x8 : (⟨Cert.KernelIdeal.S64, .f32⟩ : BufTy).Contents (Elt Ideal))

/-- The network over reshaped columns and rows is the network over columns and rows laid out along one axis. -/
theorem net_eq :
    Cert.Gcn.net Cert.KernelIdeal.Value.zeroBound (Cert.KernelIdeal.Host.gatherSum128 x1 x2) (Cert.KernelIdeal.Host.gatherSum64 x1 x2)
        (shapeCast Cert.KernelIdeal.S100000x1 (Cert.KernelIdeal.Host.invSqrtDeg x1) Cert.KernelIdeal.Gen.shapeCasts_S100000_S100000x1)
        (shapeCast Cert.KernelIdeal.S100000x1 (Cert.KernelIdeal.Host.invSqrtDeg x2) Cert.KernelIdeal.Gen.shapeCasts_S100000_S100000x1)
        x0 x3 (shapeCast Cert.KernelIdeal.S1x128 x4 Cert.KernelIdeal.Gen.shapeCasts_S128_S1x128)
        x5 (shapeCast Cert.KernelIdeal.S1x128 x6 Cert.KernelIdeal.Gen.shapeCasts_S128_S1x128)
        x7 (shapeCast Cert.KernelIdeal.S1x64 x8 Cert.KernelIdeal.Gen.shapeCasts_S64_S1x64)
      = Cert.Gcn.net Cert.ReferenceIdeal.Form.zeroBound (Cert.ReferenceIdeal.Form.gatherSum128 x1 x2) (Cert.ReferenceIdeal.Form.gatherSum64 x1 x2)
        (Cert.ReferenceIdeal.Form.col (Cert.ReferenceIdeal.Form.invSqrtDeg x1)) (Cert.ReferenceIdeal.Form.col (Cert.ReferenceIdeal.Form.invSqrtDeg x2))
        x0 x3 (Cert.ReferenceIdeal.Form.row128 x4) x5 (Cert.ReferenceIdeal.Form.row128 x6) x7 (Cert.ReferenceIdeal.Form.row64 x8) := by
  rw [invSqrtDeg_eq, gatherSum128_eq, gatherSum64_eq,
    Cert.Dense.column_cast_eq_bcast (Cert.ReferenceIdeal.Form.invSqrtDeg x1) _ Cert.ReferenceIdeal.Gen.bcast_S100000_S100000x1_0,
    Cert.Dense.column_cast_eq_bcast (Cert.ReferenceIdeal.Form.invSqrtDeg x2) _ Cert.ReferenceIdeal.Gen.bcast_S100000_S100000x1_0,
    Cert.Dense.row_cast_eq_bcast x4 _ Cert.ReferenceIdeal.Gen.bcast_S128_S1x128_1,
    Cert.Dense.row_cast_eq_bcast x6 _ Cert.ReferenceIdeal.Gen.bcast_S128_S1x128_1,
    Cert.Dense.row_cast_eq_bcast x8 _ Cert.ReferenceIdeal.Gen.bcast_S64_S1x64_1]

end Cert.Bridge

end
-- ==== Proof.lean ====
/-
  A three-layer graph convolution, tiled against whole: the certificate.

  The kernel's program runs every layer as two tiled stages around the host's neighbour aggregation: stage one scales
  row r of the features by the out-degree scaling of node r and multiplies by the weights; the host gathers the rows of
  that product by source index and adds them up by destination index; stage two scales row r of the aggregate by the
  in-degree scaling of node r, adds the bias row and, in the first two layers, takes the maximum with zero.  Each stage
  works on 20 blocks of 5000 consecutive rows.  The reference does the same arithmetic on whole arrays.  On the extended
  reals both are one function of the nine arguments, the three-layer network: a stage's result on a block of rows is the
  block of rows of the stage's whole-array form (an entry reads only its own row of the features, its own scaling and
  one column of the weights, or one entry of the bias), the blocks fill the array, the operands a stage passes to the
  matrix unit in bfloat16 are unchanged as extended reals, the host operations between the stages are the same on both
  sides, and a vector reshaped into a column or a row is the vector laid out along that axis.  No law of arithmetic
  beyond the two programs' own order of operations is used, so the inputs' finiteness is never opened.

  The three frames: the two kernel programs by the launch of their fourteen segments, the reference by its run with the
  result dropped.  The idealization rewrote no operation, so it has nothing to preserve.
-/
import proofs.«169762_j36481452212847_1_alg».proof.Defs
import proofs.«169762_j36481452212847_1_alg».proof.Proof.Gen.Kernel
import proofs.«169762_j36481452212847_1_alg».proof.Proof.Gen.Kernel.Skeleton
import proofs.«169762_j36481452212847_1_alg».proof.Proof.Gen.Kernel.Launch
import proofs.«169762_j36481452212847_1_alg».proof.Proof.Gen.Kernel.Points
import proofs.«169762_j36481452212847_1_alg».proof.Proof.Gen.Kernel.Frame
import proofs.«169762_j36481452212847_1_alg».proof.Proof.Gen.KernelIdeal
import proofs.«169762_j36481452212847_1_alg».proof.Proof.Gen.KernelIdeal.Skeleton
import proofs.«169762_j36481452212847_1_alg».proof.Proof.Gen.KernelIdeal.Launch
import proofs.«169762_j36481452212847_1_alg».proof.Proof.Gen.KernelIdeal.Points
import proofs.«169762_j36481452212847_1_alg».proof.Proof.Gen.KernelIdeal.Frame
import proofs.«169762_j36481452212847_1_alg».proof.Proof.Gen.ReferenceIdeal
import proofs.«169762_j36481452212847_1_alg».proof.Proof.Gen.ReferenceIdeal.Run
import proofs.«169762_j36481452212847_1_alg».proof.Proof.Gen.ReferenceIdeal.Read
import proofs.«169762_j36481452212847_1_alg».proof.Proof.Gen.Pre_finite_inputs
import proofs.«169762_j36481452212847_1_alg».proof.Proof.KernelValue
import proofs.«169762_j36481452212847_1_alg».proof.Proof.RefForm
import proofs.«169762_j36481452212847_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : @Cert.frame_Kernel Cert.Kernel.Gen.facts Cert.Pre_finite_inputs.Gen.facts :=
  fun m ρ _ => Cert.Kernel.Gen.frame m ρ

/-- The idealized program runs and leaves its arguments as launched. -/
theorem frame_kernel_ideal : @Cert.frame_KernelIdeal Cert.KernelIdeal.Gen.facts Cert.Pre_finite_inputs.Gen.facts :=
  fun m ρ _ => Cert.KernelIdeal.Gen.frame m ρ

/-- The reference runs and leaves its arguments as launched: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the nine arguments both idealized programs run and end with the network of those
    arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨Cert.KernelIdeal.Value.netOf m, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v74_eq, Cert.ReferenceIdeal.Form.result_eq, e0, e1, e2, e3, e4, e5, e6, e7, e8]
  exact (Cert.Bridge.net_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
